-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 105
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x64, .f32⟩
  | .hbm, ⟨96, _⟩ => ⟨S1700000x1, .f32⟩
  | .hbm, ⟨97, _⟩ => ⟨S1700000x64, .f32⟩
  | .hbm, ⟨98, _⟩ => ⟨S1700000x64, .f32⟩
  | .hbm, ⟨99, _⟩ => ⟨S_, .f32⟩
  | .hbm, ⟨100, _⟩ => ⟨S100000x64, .f32⟩
  | .hbm, ⟨101, _⟩ => ⟨S1700000x1, .i32⟩
  | .hbm, ⟨102, _⟩ => ⟨S100000x64, .f32⟩
  | .hbm, ⟨103, _⟩ => ⟨S1x64, .f32⟩
  | .hbm, ⟨104, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 176
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x64, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .i1⟩
  | 71 => ⟨S_, .f32⟩
  | 72 => ⟨S100000x64, .f32⟩
  | 73 => ⟨S100000x64, .i1⟩
  | 74 => ⟨S_, .f32⟩
  | 75 => ⟨S_, .f32⟩
  | 76 => ⟨S100000x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S100000x64, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x64, .f32⟩
  | 112 => ⟨S1700000x1, .f32⟩
  | 113 => ⟨S1700000x64, .f32⟩
  | 114 => ⟨S1700000x64, .f32⟩
  | 115 => ⟨S_, .f32⟩
  | 116 => ⟨S100000x64, .f32⟩
  | 117 => ⟨S1700000x1, .i32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .i1⟩
  | 125 => ⟨S_, .f32⟩
  | 126 => ⟨S100000x64, .f32⟩
  | 127 => ⟨S100000x64, .i1⟩
  | _ => ⟨S100000x64, .f32⟩

abbrev hbmTy0_1 (i : Nat) : BufTy := match i % 128 with
  | 0 => ⟨S_, .f32⟩
  | 1 => ⟨S_, .f32⟩
  | 2 => ⟨S100000x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S100000x64, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S1700000, .f32⟩
  | 27 => ⟨S1700000, .f32⟩
  | 28 => ⟨S100000x64, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000x64, .f32⟩
  | 38 => ⟨S1700000x1, .f32⟩
  | 39 => ⟨S1700000x64, .f32⟩
  | 40 => ⟨S1700000x64, .f32⟩
  | 41 => ⟨S_, .f32⟩
  | 42 => ⟨S100000x64, .f32⟩
  | 43 => ⟨S1700000x1, .i32⟩
  | 44 => ⟨S100000x64, .f32⟩
  | 45 => ⟨S1x64, .f32⟩
  | 46 => ⟨S100000x64, .f32⟩
  | 47 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_cst_1 : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_v4 : Ref sig .tc := ⟨.hbm, 77, rfl⟩
abbrev main_call1_v5 : Ref sig .tc := ⟨.hbm, 78, rfl⟩
abbrev main_call1_cst_2 : Ref sig .tc := ⟨.hbm, 79, rfl⟩
abbrev main_call1_v6 : Ref sig .tc := ⟨.hbm, 80, rfl⟩
abbrev main_call1_v7 : Ref sig .tc := ⟨.hbm, 81, rfl⟩
abbrev main_v47 : Ref sig .tc := ⟨.hbm, 82, rfl⟩
abbrev main_c_9 : Ref sig .tc := ⟨.hbm, 83, rfl⟩
abbrev main_v48 : Ref sig .tc := ⟨.hbm, 84, rfl⟩
abbrev main_v49 : Ref sig .tc := ⟨.hbm, 85, rfl⟩
abbrev main_c_10 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_c_11 : Ref sig .tc := ⟨.hbm, 92, rfl⟩
abbrev main_v55 : Ref sig .tc := ⟨.hbm, 93, rfl⟩
abbrev main_v56 : Ref sig .tc := ⟨.hbm, 94, rfl⟩
abbrev main_c_12 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_c_13 : Ref sig .tc := ⟨.hbm, 103, rfl⟩
abbrev main_v64 : Ref sig .tc := ⟨.hbm, 104, rfl⟩
abbrev main_v65 : Ref sig .tc := ⟨.hbm, 105, rfl⟩
abbrev main_c_14 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_15 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_cst_0 : Ref sig .tc := ⟨.hbm, 125, rfl⟩
abbrev main_call2_v2 : Ref sig .tc := ⟨.hbm, 126, rfl⟩
abbrev main_call2_v3 : Ref sig .tc := ⟨.hbm, 127, rfl⟩
abbrev main_call2_cst_1 : Ref sig .tc := ⟨.hbm, 128, rfl⟩
abbrev main_call2_call0_v0 : Ref sig .tc := ⟨.hbm, 129, rfl⟩
abbrev main_call2_call0_v1 : Ref sig .tc := ⟨.hbm, 130, rfl⟩
abbrev main_call2_v4 : Ref sig .tc := ⟨.hbm, 131, rfl⟩
abbrev main_call2_v5 : Ref sig .tc := ⟨.hbm, 132, rfl⟩
abbrev main_call2_cst_2 : Ref sig .tc := ⟨.hbm, 133, rfl⟩
abbrev main_call2_v6 : Ref sig .tc := ⟨.hbm, 134, rfl⟩
abbrev main_call2_v7 : Ref sig .tc := ⟨.hbm, 135, rfl⟩
abbrev main_v80 : Ref sig .tc := ⟨.hbm, 136, rfl⟩
abbrev main_c_16 : Ref sig .tc := ⟨.hbm, 137, rfl⟩
abbrev main_v81 : Ref sig .tc := ⟨.hbm, 138, rfl⟩
abbrev main_v82 : Ref sig .tc := ⟨.hbm, 139, rfl⟩
abbrev main_c_17 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_c_18 : Ref sig .tc := ⟨.hbm, 146, rfl⟩
abbrev main_v88 : Ref sig .tc := ⟨.hbm, 147, rfl⟩
abbrev main_v89 : Ref sig .tc := ⟨.hbm, 148, rfl⟩
abbrev main_c_19 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_c_20 : Ref sig .tc := ⟨.hbm, 157, rfl⟩
abbrev main_v97 : Ref sig .tc := ⟨.hbm, 158, rfl⟩
abbrev main_v98 : Ref sig .tc := ⟨.hbm, 159, rfl⟩
abbrev main_c_21 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_22 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The function both programs compute: a three-layer graph convolution over a graph given as an edge list.

  Nodes are rows of `x : f32[100000, 64]`; `e : i32[2, 1600000]` lists directed edges (row 0 the sources, row 1 the
  targets). Every node also gets a self loop, so the edge list used is `srcs e` / `dsts e`, of length 1700000.
  With `deg v` = the number of listed edges whose target is `v` and `degInv v = deg v ^ (-1/2)` (zero where the
  degree is not positive), edge `k` carries the weight `edgeNorm e k = degInv (srcs k) * degInv (dsts k)`, and one
  propagation step sends a feature matrix `h` to the matrix whose row `v` is the sum, over the edges `k` with
  target `v`, of `edgeNorm k • h[srcs k, :]` (`propagate`). A layer is `x ↦ propagate (x · W) + b`, the first two
  followed by `elu` (`v` where `v > 0`, `exp v - 1` elsewhere; spelt as jax spells it, through `expm1` of the
  non-positive part and a product with one).

  Everything is stated over the reference program's own shape and dimension records, at any float instance `F`,
  so that the reference's operations are these definitions literally.
-/
import proofs.«143652_j17291538334379_1_alg».proof.ReferenceIdeal

noncomputable section

namespace Cert.Gcn

open Idealize.ShloMosaic Cert.ReferenceIdeal Cert.ReferenceIdeal.Facts₀

variable {F : FTy → Type} [FloatOps F] [Cert.ReferenceIdeal.Facts]

/-- The sources of the edges, followed by every node once (the self loops). -/
def srcs (e : Vec F S2x1600000 .i32) : Vec F S1700000 .i32 :=
  concatenate S1700000 0
    [⟨S1600000, shapeCast S1600000 (extractStridedSlice S1x1600000 ![0, 0] e slices_S2x1600000_S1x1600000_0_0) shapeCasts_S1x1600000_S1600000⟩,
     ⟨S100000, iotaInDim S100000 32 0⟩] concatenates_S1600000_S100000_S1700000_d0

/-- The targets of the edges, followed by every node once (the self loops). -/
def dsts (e : Vec F S2x1600000 .i32) : Vec F S1700000 .i32 :=
  concatenate S1700000 0
    [⟨S1600000, shapeCast S1600000 (extractStridedSlice S1x1600000 ![1, 0] e slices_S2x1600000_S1x1600000_1_0) shapeCasts_S1x1600000_S1600000⟩,
     ⟨S100000, iotaInDim S100000 32 0⟩] concatenates_S1600000_S100000_S1700000_d0

/-- A node index list as gather indices: a negative index counts from the end (jax's indexing rule), and the
    list becomes a column. -/
def wrap (r : Vec F S1700000 .i32) : Vec F S1700000x1 .i32 :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- The in-degree of every node (self loop included): a one added at each edge's target. -/
def deg (e : Vec F S2x1600000 .i32) : Vec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dsts e))
    (broadcastInDim S1700000 ![] bcast_S_S1700000 (constant S_ .f32 0x3F800000#32))

/-- `deg ^ (-1/2)`, and zero where the degree is not positive. -/
def degInv (e : Vec F S2x1600000 .i32) : Vec F S100000 .f32 :=
  select (cmpf .ogt (deg e) (broadcastInDim S100000 ![] bcast_S_S100000 (constant S_ .f32 0x00000000#32)))
    (Host.rsqrt (deg e))
    (broadcastInDim S100000 ![] bcast_S_S100000 (id (constant S_ .f32 0x00000000#32)))

/-- The weight of each edge from a per-node factor `dinv`: the product of the factor at the edge's two ends
    (`s` the sources, `d` the targets). -/
def edgeNormAt (dinv : Vec F S100000 .f32) (s d : Vec F S1700000 .i32) : Vec F S1700000 .f32 :=
  mulf (Host.gather gather_S100000_S1700000x1_S1700000_n_0_n_n_0_1_1 dinv (wrap s))
    (Host.gather gather_S100000_S1700000x1_S1700000_n_0_n_n_0_1_1 dinv (wrap d))

/-- The weight of each edge: the product of `degInv` at its two ends. -/
def edgeNorm (e : Vec F S2x1600000 .i32) : Vec F S1700000 .f32 :=
  edgeNormAt (degInv e) (srcs e) (dsts e)

/-- One propagation step over an explicit edge list (`s` the sources, `d` the targets, `nrm` the weights): row `v`
    of the result is the sum over the edges into `v` of the edge's weight times the source's row of `h`. -/
def propagateAt (h : Vec F S100000x64 .f32) (s d : Vec F S1700000 .i32) (nrm : Vec F S1700000 .f32) : Vec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf (Host.gather gather_S100000x64_S1700000x1_S1700000x64_1_0_n_n_0_1_164 h (wrap s))
      (broadcastInDim S1700000x64 ![0, 1] bcast_S1700000x1_S1700000x64_0_1
        (broadcastInDim S1700000x1 ![0] bcast_S1700000_S1700000x1_0 nrm)))

/-- One propagation step: row `v` of the result is the sum over the edges into `v` of the edge's weight times the
    source's row of `h`. -/
def propagate (h : Vec F S100000x64 .f32) (e : Vec F S2x1600000 .i32) : Vec F S100000x64 .f32 :=
  propagateAt h (srcs e) (dsts e) (edgeNorm e)

/-- The dense step: `x · w`, contracting `x`'s columns with `w`'s rows. -/
def dense (x : Vec F S100000x64 .f32) (w : Vec F S64x64 .f32) : Vec F S100000x64 .f32 :=
  Host.dotGeneral dot_S100000x64_S64x64_S100000x64_1_0_0_1_n_n none x w

/-- The bias added to every row. -/
def addBias (a : Vec F S100000x64 .f32) (b : Vec F S64 .f32) : Vec F S100000x64 .f32 :=
  addf a (broadcastInDim S100000x64 ![0, 1] bcast_S1x64_S100000x64_0_1 (broadcastInDim S1x64 ![1] bcast_S64_S1x64_1 b))

/-- `elu`: `v` where `v > 0`, and `1 · expm1 v` elsewhere (the argument of `expm1` replaced by zero where `v > 0`,
    where its value is not used). -/
def elu (v : Vec F S100000x64 .f32) : Vec F S100000x64 .f32 :=
  select (cmpf .ogt v (broadcastInDim S100000x64 ![] bcast_S_S100000x64 (constant S_ .f32 0x00000000#32))) v
    (mulf (broadcastInDim S100000x64 ![] bcast_S_S100000x64 (constant S_ .f32 0x3F800000#32))
      (Host.expm1
        (select (cmpf .ogt v (broadcastInDim S100000x64 ![] bcast_S_S100000x64 (constant S_ .f32 0x00000000#32)))
          (broadcastInDim S100000x64 ![] bcast_S_S100000x64 (id (constant S_ .f32 0x00000000#32))) v)))

/-- One layer before its activation: dense step, propagation, bias. -/
def conv (x : Vec F S100000x64 .f32) (e : Vec F S2x1600000 .i32) (w : Vec F S64x64 .f32) (b : Vec F S64 .f32) :
    Vec F S100000x64 .f32 :=
  addBias (propagate (dense x w) e) b

/-- The network: three layers, `elu` after the first two. -/
def net (x : Vec F S100000x64 .f32) (e : Vec F S2x1600000 .i32) (w1 : Vec F S64x64 .f32) (b1 : Vec F S64 .f32)
    (w2 : Vec F S64x64 .f32) (b2 : Vec F S64 .f32) (w3 : Vec F S64x64 .f32) (b3 : Vec F S64 .f32) : Vec F S100000x64 .f32 :=
  conv (elu (conv (elu (conv x e w1 b1)) e w2 b2)) e w3 b3

end Cert.Gcn

end
-- ==== Proof.RefRun.lean ====
/-
  The reference program as a straight line of host operations, and its run.

  @main calls three module-local functions: `_where` once (the select that zeroes the inverse square root of a
  degree that is not positive) and `elu` twice (after the first and the second layer), and `elu` itself calls
  `_where_0` and `_where_1`. A call means the callee's body on the operands, each value of the body in a buffer
  of its own (the call's record); so with every body unfolded at its call site @main is one line of 168 operations:
  its own 135, `_where`'s 3, and 15 for each `elu` (its own 11, `_where_0`'s 3, `_where_1`'s 1). They are listed
  here in six consecutive stretches — the graph's preparation, then each layer's linear part and its activation —
  and every weakly fair execution ends with each buffer at the fold of the line over the launch contents.
-/
import proofs.«143652_j17291538334379_1_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F]

/-- The edge lists and the degree factor: the iota of the self loops, the two rows of the edge array with the self loops appended
    (`main_v3` the sources, `main_v6` the targets), the in-degree as a scatter-add of ones at the targets, its inverse square root, and `_where`'s
    three operations (the scalar zero converted to its own type, broadcast, the select) leaving the factor in `main_v14`. -/
abbrev opsP : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S100000 ![] bcast_S_S100000),
    TRef.ternary (.of main_v12 : TRef sig ⟨S100000, .i1⟩) (.of main_v13 : TRef sig ⟨S100000, .f32⟩) main_call0.v1 main_call0.v2 select ]

/-- The first layer before its activation: the edge weights (the factor gathered at the two ends of every edge — each index list first
    wrapped, a negative index counting from the end — and multiplied), the dense product `%arg0 · %arg2`, its rows gathered at the sources,
    scaled by the weights and scatter-added at the targets, the bias `%arg3` added to every row: `main_v46`. -/
abbrev opsL1 : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

/-- `elu` of `main_v46`: its own eleven operations, `_where_0`'s three and `_where_1`'s one in their places; the value is left in `main_v47`. -/
abbrev opsE1 : List (HloOp τ sig (Elt F)) :=
  [ TRef.nullary main_call1.cst (constant S_ .f32 0x00000000#32),
    TRef.unary main_call1.cst main_call1.v0 (broadcastInDim S100000x64 ![] bcast_S_S100000x64),
    TRef.binary (.of main_v46 : TRef sig ⟨S100000x64, .f32⟩) main_call1.v0 main_call1.v1 (cmpf .ogt),
    TRef.nullary main_call1.cst_0 (constant S_ .f32 0x00000000#32),
    TRef.unary main_call1.cst_0 main_call1.v2 (broadcastInDim S100000x64 ![] bcast_S_S100000x64),
    TRef.binary (.of main_v46 : TRef sig ⟨S100000x64, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x64 ![] bcast_S_S100000x64),
    TRef.ternary main_call1.v3 main_call1.call0.v1 (.of main_v46 : TRef sig ⟨S100000x64, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x64 ![] bcast_S_S100000x64),
    TRef.binary main_call1.v6 main_call1.v5 main_call1.v7 mulf,
    TRef.ternary main_call1.v1 (.of main_v46 : TRef sig ⟨S100000x64, .f32⟩) main_call1.v7 main_call1.call1.v0 select ]

/-- The second layer before its activation, the same operations over `main_v47`, `%arg4` and `%arg5`, the edge weights computed again: `main_v79`. -/
abbrev opsL2 : List (HloOp τ sig (Elt F)) :=
  [ nullary main_c_9 (constantI S_ 32 0#32),
    unary main_c_9 main_v48 (broadcastInDim S1700000 ![] bcast_S_S1700000 : (⟨S_, .i32⟩ : BufTy).Contents (Elt F) → (⟨S1700000, .i32⟩ : BufTy).Contents (Elt F)),
    binary main_v3 main_v48 main_v49 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v50 (broadcastInDim S1700000 ![] bcast_S_S1700000 : (⟨S_, .i32⟩ : BufTy).Contents (Elt F) → (⟨S1700000, .i32⟩ : BufTy).Contents (Elt F)),
    binary main_v3 main_v50 main_v51 (addi : (⟨S1700000, .i32⟩ : BufTy).Contents (Elt F) → (⟨S1700000, .i32⟩ : BufTy).Contents (Elt F) → (⟨S1700000, .i32⟩ : BufTy).Contents (Elt F)),
    ternary main_v49 main_v51 main_v3 main_v52 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v52 main_v53 (broadcastInDim S1700000x1 ![0] bcast_S1700000_S1700000x1_0 : (⟨S1700000, .i32⟩ : BufTy).Contents (Elt F) → (⟨S1700000x1, .i32⟩ : BufTy).Contents (Elt F)),
    binary main_v14 main_v53 main_v54 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_11 (constantI S_ 32 0#32),
    unary main_c_11 main_v55 (broadcastInDim S1700000 ![] bcast_S_S1700000 : (⟨S_, .i32⟩ : BufTy).Contents (Elt F) → (⟨S1700000, .i32⟩ : BufTy).Contents (Elt F)),
    binary main_v6 main_v55 main_v56 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v57 (broadcastInDim S1700000 ![] bcast_S_S1700000 : (⟨S_, .i32⟩ : BufTy).Contents (Elt F) → (⟨S1700000, .i32⟩ : BufTy).Contents (Elt F)),
    binary main_v6 main_v57 main_v58 (addi : (⟨S1700000, .i32⟩ : BufTy).Contents (Elt F) → (⟨S1700000, .i32⟩ : BufTy).Contents (Elt F) → (⟨S1700000, .i32⟩ : BufTy).Contents (Elt F)),
    ternary main_v56 main_v58 main_v6 main_v59 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v59 main_v60 (broadcastInDim S1700000x1 ![0] bcast_S1700000_S1700000x1_0 : (⟨S1700000, .i32⟩ : BufTy).Contents (Elt F) → (⟨S1700000x1, .i32⟩ : BufTy).Contents (Elt F)),
    binary main_v14 main_v60 main_v61 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v54 main_v61 main_v62 (mulf : (⟨S1700000, .f32⟩ : BufTy).Contents (Elt F) → (⟨S1700000, .f32⟩ : BufTy).Contents (Elt F) → (⟨S1700000, .f32⟩ : BufTy).Contents (Elt F)),
    binary main_v47 main_arg4 main_v63 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_13 (constantI S_ 32 0#32),
    unary main_c_13 main_v64 (broadcastInDim S1700000 ![] bcast_S_S1700000 : (⟨S_, .i32⟩ : BufTy).Contents (Elt F) → (⟨S1700000, .i32⟩ : BufTy).Contents (Elt F)),
    binary main_v3 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v66 (broadcastInDim S1700000 ![] bcast_S_S1700000 : (⟨S_, .i32⟩ : BufTy).Contents (Elt F) → (⟨S1700000, .i32⟩ : BufTy).Contents (Elt F)),
    binary main_v3 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v3 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v63 main_v69 main_v70 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v62 main_v71 (broadcastInDim S1700000x1 ![0] bcast_S1700000_S1700000x1_0 : (⟨S1700000, .f32⟩ : BufTy).Contents (Elt F) → (⟨S1700000x1, .f32⟩ : BufTy).Contents (Elt F)),
    unary main_v71 main_v72 (broadcastInDim S1700000x64 ![0, 1] bcast_S1700000x1_S1700000x64_0_1 : (⟨S1700000x1, .f32⟩ : BufTy).Contents (Elt F) → (⟨S1700000x64, .f32⟩ : BufTy).Contents (Elt F)),
    binary main_v70 main_v72 main_v73 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v74 (broadcastInDim S100000x64 ![] bcast_S_S100000x64 : (⟨S_, .f32⟩ : BufTy).Contents (Elt F) → (⟨S100000x64, .f32⟩ : BufTy).Contents (Elt F)),
    unary main_v6 main_v75 (broadcastInDim S1700000x1 ![0] bcast_S1700000_S1700000x1_0 : (⟨S1700000, .i32⟩ : BufTy).Contents (Elt F) → (⟨S1700000x1, .i32⟩ : BufTy).Contents (Elt F)),
    ternary main_v74 main_v75 main_v73 main_v76 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v77 (broadcastInDim S1x64 ![1] bcast_S64_S1x64_1 : (⟨S64, .f32⟩ : BufTy).Contents (Elt F) → (⟨S1x64, .f32⟩ : BufTy).Contents (Elt F)),
    unary main_v77 main_v78 (broadcastInDim S100000x64 ![0, 1] bcast_S1x64_S100000x64_0_1 : (⟨S1x64, .f32⟩ : BufTy).Contents (Elt F) → (⟨S100000x64, .f32⟩ : BufTy).Contents (Elt F)),
    binary main_v76 main_v78 main_v79 (addf : (⟨S100000x64, .f32⟩ : BufTy).Contents (Elt F) → (⟨S100000x64, .f32⟩ : BufTy).Contents (Elt F) → (⟨S100000x64, .f32⟩ : BufTy).Contents (Elt F)) ]

/-- `elu` of `main_v79`, left in `main_v80`. -/
abbrev opsE2 : List (HloOp τ sig (Elt F)) :=
  [ TRef.nullary main_call2.cst (constant S_ .f32 0x00000000#32),
    TRef.unary main_call2.cst main_call2.v0 (broadcastInDim S100000x64 ![] bcast_S_S100000x64),
    TRef.binary (.of main_v79 : TRef sig ⟨S100000x64, .f32⟩) main_call2.v0 main_call2.v1 (cmpf .ogt),
    TRef.nullary main_call2.cst_0 (constant S_ .f32 0x00000000#32),
    TRef.unary main_call2.cst_0 main_call2.v2 (broadcastInDim S100000x64 ![] bcast_S_S100000x64),
    TRef.binary (.of main_v79 : TRef sig ⟨S100000x64, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x64 ![] bcast_S_S100000x64),
    TRef.ternary main_call2.v3 main_call2.call0.v1 (.of main_v79 : TRef sig ⟨S100000x64, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S100000x64 ![] bcast_S_S100000x64),
    TRef.binary main_call2.v6 main_call2.v5 main_call2.v7 mulf,
    TRef.ternary main_call2.v1 (.of main_v79 : TRef sig ⟨S100000x64, .f32⟩) main_call2.v7 main_call2.call1.v0 select ]

/-- The third layer, which has no activation, over `main_v80`, `%arg6` and `%arg7`: the result `main_v112`. -/
abbrev opsL3 : List (HloOp τ sig (Elt F)) :=
  [ nullary main_c_16 (constantI S_ 32 0#32),
    unary main_c_16 main_v81 (broadcastInDim S1700000 ![] bcast_S_S1700000 : (⟨S_, .i32⟩ : BufTy).Contents (Elt F) → (⟨S1700000, .i32⟩ : BufTy).Contents (Elt F)),
    binary main_v3 main_v81 main_v82 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v83 (broadcastInDim S1700000 ![] bcast_S_S1700000 : (⟨S_, .i32⟩ : BufTy).Contents (Elt F) → (⟨S1700000, .i32⟩ : BufTy).Contents (Elt F)),
    binary main_v3 main_v83 main_v84 (addi : (⟨S1700000, .i32⟩ : BufTy).Contents (Elt F) → (⟨S1700000, .i32⟩ : BufTy).Contents (Elt F) → (⟨S1700000, .i32⟩ : BufTy).Contents (Elt F)),
    ternary main_v82 main_v84 main_v3 main_v85 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v85 main_v86 (broadcastInDim S1700000x1 ![0] bcast_S1700000_S1700000x1_0 : (⟨S1700000, .i32⟩ : BufTy).Contents (Elt F) → (⟨S1700000x1, .i32⟩ : BufTy).Contents (Elt F)),
    binary main_v14 main_v86 main_v87 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_18 (constantI S_ 32 0#32),
    unary main_c_18 main_v88 (broadcastInDim S1700000 ![] bcast_S_S1700000 : (⟨S_, .i32⟩ : BufTy).Contents (Elt F) → (⟨S1700000, .i32⟩ : BufTy).Contents (Elt F)),
    binary main_v6 main_v88 main_v89 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v90 (broadcastInDim S1700000 ![] bcast_S_S1700000 : (⟨S_, .i32⟩ : BufTy).Contents (Elt F) → (⟨S1700000, .i32⟩ : BufTy).Contents (Elt F)),
    binary main_v6 main_v90 main_v91 (addi : (⟨S1700000, .i32⟩ : BufTy).Contents (Elt F) → (⟨S1700000, .i32⟩ : BufTy).Contents (Elt F) → (⟨S1700000, .i32⟩ : BufTy).Contents (Elt F)),
    ternary main_v89 main_v91 main_v6 main_v92 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v92 main_v93 (broadcastInDim S1700000x1 ![0] bcast_S1700000_S1700000x1_0 : (⟨S1700000, .i32⟩ : BufTy).Contents (Elt F) → (⟨S1700000x1, .i32⟩ : BufTy).Contents (Elt F)),
    binary main_v14 main_v93 main_v94 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v87 main_v94 main_v95 (mulf : (⟨S1700000, .f32⟩ : BufTy).Contents (Elt F) → (⟨S1700000, .f32⟩ : BufTy).Contents (Elt F) → (⟨S1700000, .f32⟩ : BufTy).Contents (Elt F)),
    binary main_v80 main_arg6 main_v96 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_20 (constantI S_ 32 0#32),
    unary main_c_20 main_v97 (broadcastInDim S1700000 ![] bcast_S_S1700000 : (⟨S_, .i32⟩ : BufTy).Contents (Elt F) → (⟨S1700000, .i32⟩ : BufTy).Contents (Elt F)),
    binary main_v3 main_v97 main_v98 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v99 (broadcastInDim S1700000 ![] bcast_S_S1700000 : (⟨S_, .i32⟩ : BufTy).Contents (Elt F) → (⟨S1700000, .i32⟩ : BufTy).Contents (Elt F)),
    binary main_v3 main_v99 main_v100 (addi : (⟨S1700000, .i32⟩ : BufTy).Contents (Elt F) → (⟨S1700000, .i32⟩ : BufTy).Contents (Elt F) → (⟨S1700000, .i32⟩ : BufTy).Contents (Elt F)),
    ternary main_v98 main_v100 main_v3 main_v101 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v101 main_v102 (broadcastInDim S1700000x1 ![0] bcast_S1700000_S1700000x1_0 : (⟨S1700000, .i32⟩ : BufTy).Contents (Elt F) → (⟨S1700000x1, .i32⟩ : BufTy).Contents (Elt F)),
    binary main_v96 main_v102 main_v103 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v95 main_v104 (broadcastInDim S1700000x1 ![0] bcast_S1700000_S1700000x1_0 : (⟨S1700000, .f32⟩ : BufTy).Contents (Elt F) → (⟨S1700000x1, .f32⟩ : BufTy).Contents (Elt F)),
    unary main_v104 main_v105 (broadcastInDim S1700000x64 ![0, 1] bcast_S1700000x1_S1700000x64_0_1 : (⟨S1700000x1, .f32⟩ : BufTy).Contents (Elt F) → (⟨S1700000x64, .f32⟩ : BufTy).Contents (Elt F)),
    binary main_v103 main_v105 main_v106 (mulf : (⟨S1700000x64, .f32⟩ : BufTy).Contents (Elt F) → (⟨S1700000x64, .f32⟩ : BufTy).Contents (Elt F) → (⟨S1700000x64, .f32⟩ : BufTy).Contents (Elt F)),
    nullary main_cst_22 (constant S_ .f32 0x00000000#32),
    unary main_cst_22 main_v107 (broadcastInDim S100000x64 ![] bcast_S_S100000x64 : (⟨S_, .f32⟩ : BufTy).Contents (Elt F) → (⟨S100000x64, .f32⟩ : BufTy).Contents (Elt F)),
    unary main_v6 main_v108 (broadcastInDim S1700000x1 ![0] bcast_S1700000_S1700000x1_0 : (⟨S1700000, .i32⟩ : BufTy).Contents (Elt F) → (⟨S1700000x1, .i32⟩ : BufTy).Contents (Elt F)),
    ternary main_v107 main_v108 main_v106 main_v109 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v110 (broadcastInDim S1x64 ![1] bcast_S64_S1x64_1 : (⟨S64, .f32⟩ : BufTy).Contents (Elt F) → (⟨S1x64, .f32⟩ : BufTy).Contents (Elt F)),
    unary main_v110 main_v111 (broadcastInDim S100000x64 ![0, 1] bcast_S1x64_S100000x64_0_1 : (⟨S1x64, .f32⟩ : BufTy).Contents (Elt F) → (⟨S100000x64, .f32⟩ : BufTy).Contents (Elt F)),
    binary main_v109 main_v111 main_v112 (addf : (⟨S100000x64, .f32⟩ : BufTy).Contents (Elt F) → (⟨S100000x64, .f32⟩ : BufTy).Contents (Elt F) → (⟨S100000x64, .f32⟩ : BufTy).Contents (Elt F)) ]

/-- @main's operations in order, the calls unfolded: the six stretches one after the other. -/
abbrev ops : List (HloOp τ sig (Elt F)) := opsP ++ (opsL1 ++ (opsE1 ++ (opsL2 ++ (opsE2 ++ opsL3))))

-- 168 binds re-associated: the rewrite under the chain recurses once per statement
set_option maxRecDepth 8192 in
/-- @main is that straight line: with the functions' definitions unfolded at their calls and the records at their
    fields, and the list's stretches joined, both sides are one chain of `hlo` steps once sequencing is
    re-associated. -/
theorem main_eq (c : Dev nD) : main (F := F) c = seq ops := by
  simp only [ops, opsP, opsL1, opsE1, opsL2, opsE2, opsL3, List.cons_append, List.nil_append, main, main_part0, main_part1, main_part2,
    fn_where.body, fn_where_0.body, fn_where_1.body, fn_elu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsP_sub : (opsP : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩

theorem opsL1_sub : (opsL1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem opsE1_sub : (opsE1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem opsE2_sub : (opsE2 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem opsL3_sub : (opsL3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- Every operation touches TensorCore references only. -/
theorem ops_sub : (ops : List (HloOp τ sig (Elt F))).Forall fun op => op.bufs ⊆ tcRefs τ sig :=
  List.forall_append.mpr ⟨opsP_sub, List.forall_append.mpr ⟨opsL1_sub, List.forall_append.mpr ⟨opsE1_sub,
    List.forall_append.mpr ⟨opsL2_sub, List.forall_append.mpr ⟨opsE2_sub, opsL3_sub⟩⟩⟩⟩⟩

/-- For any float values, from any memory with zero counters: every weakly fair execution of @main on the TensorCore
    terminates, and every final state has each TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefValue.lean ====
/-
  What the reference program's line of operations leaves in its result buffer: the three-layer graph convolution
  `Cert.Gcn.net` of the eight arguments' contents, the arguments themselves unchanged.

  The line is read stretch by stretch. The preparation leaves the edge lists with their self loops and the
  inverse-square-root degree factor (`srcs`, `dsts`, `degInv` of the edge array). Each layer's linear part reads
  those three buffers, its input features, its weight matrix and its bias, and leaves
  `addBias (propagateAt (dense h w) s d (edgeNormAt dinv s d)) b` — the program computes the edge weights anew in
  every layer, always as the same function of the same three buffers, which is the one `edgeNorm` of the edge
  array. Each activation stretch leaves `elu` of the buffer before it. Every stretch leaves alone whatever it does
  not write, so the buffers a later stretch reads still hold what an earlier one left; composing the six gives
  `net`, by unfolding `net`, `conv`, `propagate` and `edgeNorm`.
-/
import proofs.«143652_j17291538334379_1_alg».proof.Proof.RefRun
import proofs.«143652_j17291538334379_1_alg».proof.Proof.Spec

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F]

/-- The fold over two lines in a row is the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => after_app l₁ l₂ (op.result V)

/-! ## What each stretch writes, and that it leaves the rest alone -/

/-- The buffers `opsP`'s operations write. -/
abbrev opsP_W : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14]
theorem opsP_writes : (opsP : List (HloOp τ sig (Elt F))).Forall fun op =>
    op.writes ⊆ (opsP_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsP` does not write keeps its contents through it. -/
theorem opsP_keep (V : Valuation τ sig (Elt F)) (r : Ref sig .tc) (h : r ∉ opsP_W) :
    after opsP V (Proc.devRef .tc r) = V (Proc.devRef .tc r) :=
  after_of_writes_sub opsP V opsP_writes h

/-- The buffers `opsL1`'s operations write. -/
abbrev opsL1_W : List (Ref sig .tc) := [main_c, main_v15, main_v16, main_c_3, main_v17, main_v18, main_v19, main_v20, main_v21, main_c_4, main_v22, main_v23, main_c_5, main_v24, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46]
theorem opsL1_writes : (opsL1 : List (HloOp τ sig (Elt F))).Forall fun op =>
    op.writes ⊆ (opsL1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL1` does not write keeps its contents through it. -/
theorem opsL1_keep (V : Valuation τ sig (Elt F)) (r : Ref sig .tc) (h : r ∉ opsL1_W) :
    after opsL1 V (Proc.devRef .tc r) = V (Proc.devRef .tc r) :=
  after_of_writes_sub opsL1 V opsL1_writes h

/-- The buffers `opsE1`'s operations write. -/
abbrev opsE1_W : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v47]
theorem opsE1_writes : (opsE1 : List (HloOp τ sig (Elt F))).Forall fun op =>
    op.writes ⊆ (opsE1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsE1` does not write keeps its contents through it. -/
theorem opsE1_keep (V : Valuation τ sig (Elt F)) (r : Ref sig .tc) (h : r ∉ opsE1_W) :
    after opsE1 V (Proc.devRef .tc r) = V (Proc.devRef .tc r) :=
  after_of_writes_sub opsE1 V opsE1_writes h

/-- The buffers `opsL2`'s operations write. -/
abbrev opsL2_W : List (Ref sig .tc) := [main_c_9, main_v48, main_v49, main_c_10, main_v50, main_v51, main_v52, main_v53, main_v54, main_c_11, main_v55, main_v56, main_c_12, main_v57, main_v58, main_v59, main_v60, main_v61, main_v62, main_v63, main_c_13, main_v64, main_v65, main_c_14, main_v66, main_v67, main_v68, main_v69, main_v70, main_v71, main_v72, main_v73, main_cst_15, main_v74, main_v75, main_v76, main_v77, main_v78, main_v79]
theorem opsL2_writes : (opsL2 : List (HloOp τ sig (Elt F))).Forall fun op =>
    op.writes ⊆ (opsL2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL2` does not write keeps its contents through it. -/
theorem opsL2_keep (V : Valuation τ sig (Elt F)) (r : Ref sig .tc) (h : r ∉ opsL2_W) :
    after opsL2 V (Proc.devRef .tc r) = V (Proc.devRef .tc r) :=
  after_of_writes_sub opsL2 V opsL2_writes h

/-- The buffers `opsE2`'s operations write. -/
abbrev opsE2_W : List (Ref sig .tc) := [main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v80]
theorem opsE2_writes : (opsE2 : List (HloOp τ sig (Elt F))).Forall fun op =>
    op.writes ⊆ (opsE2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsE2` does not write keeps its contents through it. -/
theorem opsE2_keep (V : Valuation τ sig (Elt F)) (r : Ref sig .tc) (h : r ∉ opsE2_W) :
    after opsE2 V (Proc.devRef .tc r) = V (Proc.devRef .tc r) :=
  after_of_writes_sub opsE2 V opsE2_writes h

/-- The buffers `opsL3`'s operations write. -/
abbrev opsL3_W : List (Ref sig .tc) := [main_c_16, main_v81, main_v82, main_c_17, main_v83, main_v84, main_v85, main_v86, main_v87, main_c_18, main_v88, main_v89, main_c_19, main_v90, main_v91, main_v92, main_v93, main_v94, main_v95, main_v96, main_c_20, main_v97, main_v98, main_c_21, main_v99, main_v100, main_v101, main_v102, main_v103, main_v104, main_v105, main_v106, main_cst_22, main_v107, main_v108, main_v109, main_v110, main_v111, main_v112]
theorem opsL3_writes : (opsL3 : List (HloOp τ sig (Elt F))).Forall fun op =>
    op.writes ⊆ (opsL3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL3` does not write keeps its contents through it. -/
theorem opsL3_keep (V : Valuation τ sig (Elt F)) (r : Ref sig .tc) (h : r ∉ opsL3_W) :
    after opsL3 V (Proc.devRef .tc r) = V (Proc.devRef .tc r) :=
  after_of_writes_sub opsL3 V opsL3_writes h

/-! ## What each stretch leaves, at any contents before it

The host's scatter-add, gather, inverse square root and `expm1` stay folded throughout: the equations never look
inside them (the matrix product is a field of the float values' own, with nothing to unfold). -/

attribute [local irreducible] Host.scatterAdd Host.gather Host.rsqrt Host.expm1 in
/-- The sources with the self loops appended. -/
theorem opsP_srcs (V : Valuation τ sig (Elt F)) :
    after opsP V (main_v3 : DevRef τ sig)
      = Cert.Gcn.srcs (V (main_arg1 : DevRef τ sig)) := by
  after_results_simp
  rfl

attribute [local irreducible] Host.scatterAdd Host.gather Host.rsqrt Host.expm1 in
/-- The targets with the self loops appended. -/
theorem opsP_dsts (V : Valuation τ sig (Elt F)) :
    after opsP V (main_v6 : DevRef τ sig)
      = Cert.Gcn.dsts (V (main_arg1 : DevRef τ sig)) := by
  after_results_simp
  rfl

attribute [local irreducible] Host.scatterAdd Host.gather Host.rsqrt Host.expm1 in
/-- The degree factor: the in-degree to the power `-1/2`, zero where the degree is not positive. -/
theorem opsP_degInv (V : Valuation τ sig (Elt F)) :
    after opsP V (main_v14 : DevRef τ sig)
      = Cert.Gcn.degInv (V (main_arg1 : DevRef τ sig)) := by
  after_results_simp
  rfl

attribute [local irreducible] Host.scatterAdd Host.gather Host.rsqrt Host.expm1 in
/-- The first layer before its activation, from the features `%arg0`, the edge lists and the factor. -/
theorem opsL1_val (V : Valuation τ sig (Elt F)) :
    after opsL1 V (main_v46 : DevRef τ sig)
      = Cert.Gcn.addBias (Cert.Gcn.propagateAt (Cert.Gcn.dense (V (main_arg0 : DevRef τ sig)) (V (main_arg2 : DevRef τ sig))) (V (main_v3 : DevRef τ sig)) (V (main_v6 : DevRef τ sig))
          (Cert.Gcn.edgeNormAt (V (main_v14 : DevRef τ sig)) (V (main_v3 : DevRef τ sig)) (V (main_v6 : DevRef τ sig)))) (V (main_arg3 : DevRef τ sig)) := by
  after_results_simp
  rfl

attribute [local irreducible] Host.scatterAdd Host.gather Host.rsqrt Host.expm1 in
/-- The first activation. -/
theorem opsE1_val (V : Valuation τ sig (Elt F)) :
    after opsE1 V (main_v47 : DevRef τ sig)
      = Cert.Gcn.elu (V (main_v46 : DevRef τ sig)) := by
  after_results_simp
  rfl

attribute [local irreducible] Host.scatterAdd Host.gather Host.rsqrt Host.expm1 in
/-- The second layer before its activation, from the features in `main_v47`. -/
theorem opsL2_val (V : Valuation τ sig (Elt F)) :
    after opsL2 V (main_v79 : DevRef τ sig)
      = Cert.Gcn.addBias (Cert.Gcn.propagateAt (Cert.Gcn.dense (V (main_v47 : DevRef τ sig)) (V (main_arg4 : DevRef τ sig))) (V (main_v3 : DevRef τ sig)) (V (main_v6 : DevRef τ sig))
          (Cert.Gcn.edgeNormAt (V (main_v14 : DevRef τ sig)) (V (main_v3 : DevRef τ sig)) (V (main_v6 : DevRef τ sig)))) (V (main_arg5 : DevRef τ sig)) := by
  after_results_simp
  rfl

attribute [local irreducible] Host.scatterAdd Host.gather Host.rsqrt Host.expm1 in
/-- The second activation. -/
theorem opsE2_val (V : Valuation τ sig (Elt F)) :
    after opsE2 V (main_v80 : DevRef τ sig)
      = Cert.Gcn.elu (V (main_v79 : DevRef τ sig)) := by
  after_results_simp
  rfl

attribute [local irreducible] Host.scatterAdd Host.gather Host.rsqrt Host.expm1 in
/-- The third layer, from the features in `main_v80`. -/
theorem opsL3_val (V : Valuation τ sig (Elt F)) :
    after opsL3 V (main_v112 : DevRef τ sig)
      = Cert.Gcn.addBias (Cert.Gcn.propagateAt (Cert.Gcn.dense (V (main_v80 : DevRef τ sig)) (V (main_arg6 : DevRef τ sig))) (V (main_v3 : DevRef τ sig)) (V (main_v6 : DevRef τ sig))
          (Cert.Gcn.edgeNormAt (V (main_v14 : DevRef τ sig)) (V (main_v3 : DevRef τ sig)) (V (main_v6 : DevRef τ sig)))) (V (main_arg7 : DevRef τ sig)) := by
  after_results_simp
  rfl

/-! ## The whole line -/

/-- A buffer no stretch writes keeps its contents through the whole line. -/
theorem ops_keep (V : Valuation τ sig (Elt F)) (r : Ref sig .tc) (h0 : r ∉ opsP_W) (h1 : r ∉ opsL1_W) (h2 : r ∉ opsE1_W) (h3 : r ∉ opsL2_W) (h4 : r ∉ opsE2_W) (h5 : r ∉ opsL3_W) :
    after ops V (Proc.devRef .tc r) = V (Proc.devRef .tc r) := by
  simp only [ops, after_app]
  rw [opsL3_keep _ r h5, opsE2_keep _ r h4, opsL2_keep _ r h3, opsE1_keep _ r h2, opsL1_keep _ r h1, opsP_keep _ r h0]

/-- The result buffer holds the network of the arguments' contents: each stretch's value in turn, last to first, the
    buffers it reads traced back through the stretches that leave them alone to the one that wrote them (or to the
    launch contents, for an argument). -/
theorem result_eq (V : Valuation τ sig (Elt F)) :
    after ops V (main_v112 : DevRef τ sig)
      = Cert.Gcn.net (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  simp only [ops, after_app]
  rw [opsL3_val]
  rw [opsE2_val, opsE2_keep _ main_v3 (by decide), opsE2_keep _ main_v6 (by decide), opsE2_keep _ main_v14 (by decide), opsE2_keep _ main_arg6 (by decide), opsE2_keep _ main_arg7 (by decide)]
  rw [opsL2_val, opsL2_keep _ main_v3 (by decide), opsL2_keep _ main_v6 (by decide), opsL2_keep _ main_v14 (by decide), opsL2_keep _ main_arg6 (by decide), opsL2_keep _ main_arg7 (by decide)]
  rw [opsE1_val, opsE1_keep _ main_v3 (by decide), opsE1_keep _ main_v6 (by decide), opsE1_keep _ main_v14 (by decide), opsE1_keep _ main_arg4 (by decide), opsE1_keep _ main_arg5 (by decide), opsE1_keep _ main_arg6 (by decide), opsE1_keep _ main_arg7 (by decide)]
  rw [opsL1_val, opsL1_keep _ main_v3 (by decide), opsL1_keep _ main_v6 (by decide), opsL1_keep _ main_v14 (by decide), opsL1_keep _ main_arg4 (by decide), opsL1_keep _ main_arg5 (by decide), opsL1_keep _ main_arg6 (by decide), opsL1_keep _ main_arg7 (by decide)]
  rw [opsP_srcs, opsP_dsts, opsP_degInv, opsP_keep _ main_arg0 (by decide), opsP_keep _ main_arg2 (by decide), opsP_keep _ main_arg3 (by decide), opsP_keep _ main_arg4 (by decide), opsP_keep _ main_arg5 (by decide), opsP_keep _ main_arg6 (by decide), opsP_keep _ main_arg7 (by decide)]
  rfl

theorem arg0_eq (V : Valuation τ sig (Elt F)) : after ops V (main_arg0 : DevRef τ sig) = V (main_arg0 : DevRef τ sig) :=
  ops_keep V main_arg0 (by decide) (by decide) (by decide) (by decide) (by decide) (by decide)
theorem arg1_eq (V : Valuation τ sig (Elt F)) : after ops V (main_arg1 : DevRef τ sig) = V (main_arg1 : DevRef τ sig) :=
  ops_keep V main_arg1 (by decide) (by decide) (by decide) (by decide) (by decide) (by decide)
theorem arg2_eq (V : Valuation τ sig (Elt F)) : after ops V (main_arg2 : DevRef τ sig) = V (main_arg2 : DevRef τ sig) :=
  ops_keep V main_arg2 (by decide) (by decide) (by decide) (by decide) (by decide) (by decide)
theorem arg3_eq (V : Valuation τ sig (Elt F)) : after ops V (main_arg3 : DevRef τ sig) = V (main_arg3 : DevRef τ sig) :=
  ops_keep V main_arg3 (by decide) (by decide) (by decide) (by decide) (by decide) (by decide)
theorem arg4_eq (V : Valuation τ sig (Elt F)) : after ops V (main_arg4 : DevRef τ sig) = V (main_arg4 : DevRef τ sig) :=
  ops_keep V main_arg4 (by decide) (by decide) (by decide) (by decide) (by decide) (by decide)
theorem arg5_eq (V : Valuation τ sig (Elt F)) : after ops V (main_arg5 : DevRef τ sig) = V (main_arg5 : DevRef τ sig) :=
  ops_keep V main_arg5 (by decide) (by decide) (by decide) (by decide) (by decide) (by decide)
theorem arg6_eq (V : Valuation τ sig (Elt F)) : after ops V (main_arg6 : DevRef τ sig) = V (main_arg6 : DevRef τ sig) :=
  ops_keep V main_arg6 (by decide) (by decide) (by decide) (by decide) (by decide) (by decide)
theorem arg7_eq (V : Valuation τ sig (Elt F)) : after ops V (main_arg7 : DevRef τ sig) = V (main_arg7 : DevRef τ sig) :=
  ops_keep V main_arg7 (by decide) (by decide) (by decide) (by decide) (by decide) (by decide)

end Cert.ReferenceIdeal.Hand

end
-- ==== Proof.KRun.lean ====
/-
  The kernel program's run, with its result readable: the program is six kernel regions among stretches of host
  operations, and its execution is followed segment by segment — each host stretch rewrites the buffers it computes,
  each region leaves its output array at what its ten write-backs fold to and every other buffer as it found it. The
  buffer contents at the last boundary are `W12`; every weakly fair execution terminates with every unscoped buffer
  holding them, so whatever follows from that holds of every final state (`run_of`).
-/
import proofs.«143652_j17291538334379_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every unscoped
    TensorCore buffer holds the contents `W12` of the last segment boundary (the fold of the host stretches and the
    six regions' write-backs over the launch memory): so any property `Q` of final states that follows from that holds
    at the end of every run. -/
theorem run_of (Q : MemSt nD τ sig (Elt F) → Prop)
    (hQ : ∀ s : MemSt nD τ sig (Elt F), (∀ (c : Dev nD), ∀ b ∈ Pipeline.ucRefs τ sig, s.mem (((c : Thread nD τ)).1, b) = W12 m ρ c b) → Q s) :
    θ_run defs (onTc (τ := τ) (main (F := F))) ⟨m, fun _ => 0, ρ⟩ (fun r => Q r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => hQ s h)

end Cert.KernelIdeal.Hand

end
-- ==== Proof.KBlock.lean ====
/-
  One row block at a time: what each kernel body computes on a block of 10000 rows is the corresponding rows of a
  whole-array function.

  * The dense step. A body multiplies its 10000 × 64 block of `X` with all of `W` into a zero accumulator; at the
    extended reals that is the sum over the 64 contracted positions with no accumulator, which is the host's product
    of the whole `X` read at the block's rows (`dense_block`, `mm_at`): both are `∑ k, X[q·10000 + r, k] · W[k, c]`,
    the two sums re-indexed over `Fin 64`.
  * Bias and activation. A body adds the bias row to every row of its block and applies `elu` written as
    `v if v > 0 else exp v − 1`; the reference writes `elu` through `expm1` of the non-positive part times one. On one
    extended real the two agree (`elu_scalar`: where `v > 0` both are `v`; elsewhere `expm1 v = exp v − 1` and
    `1 · u = u`), hence on a block (`act_block`, `act_at`); the last layer has the bias only (`bias_at`).
-/
import proofs.«143652_j17291538334379_1_alg».proof.KernelIdeal
import proofs.«143652_j17291538334379_1_alg».proof.Proof.Gen.KernelIdeal.Skeleton
import proofs.«143652_j17291538334379_1_alg».proof.Proof.Spec
import Idealize.ShloMosaic.Lib.KernelVsHost
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

variable [Cert.KernelIdeal.Facts] [Cert.ReferenceIdeal.Facts]

/-- The zero offset of a whole-buffer access, as a function. -/
theorem hz : (![0, 0] : Fin 2 → Nat) = fun _ => 0 := funext fun a => by fin_cases a <;> rfl

/-! ## The dense step -/

/-- Row `r` of block `q` of the product: the block of `X` times `W` at `(r, c)` is `X · W` at `(q · 10000 + r, c)`. -/
theorem dense_block (q : Nat) (hq : q < 10) (X : FVec Ideal Cert.ReferenceIdeal.S100000x64 .f32) (W : FVec Ideal S64x64 .f32)
    (xb : FVec Ideal S10000x64 .f32)
    (hx : ∀ (r : Fin 10000) (k : Fin 64), xb (ix2 r k) = X (ix2 (⟨q * 10000 + r.val, by omega⟩ : Fin 100000) k))
    (r : Fin 10000) (c : Fin 64) :
    Host.dotGeneral dot_S10000x64_S64x64_S10000x64_1_0_0_1_n_n none xb W (ix2 r c)
      = Cert.Gcn.dense (F := Ideal) X W (ix2 (⟨q * 10000 + r.val, by omega⟩ : Fin 100000) c) := by
  unfold Cert.Gcn.dense
  simp only [Host.dotGeneral]
  rw [Ideal.dotGeneral_apply, Ideal.dotGeneral_apply]
  rw [← Equiv.sum_comp (contrEquiv1 dot_S10000x64_S64x64_S10000x64_1_0_0_1_n_n 64 rfl rfl).symm,
    ← Equiv.sum_comp (contrEquiv1 Cert.ReferenceIdeal.dot_S100000x64_S64x64_S100000x64_1_0_0_1_n_n 64 rfl rfl).symm]
  refine Finset.sum_congr rfl fun k _ => ?_
  have e1 : dot_S10000x64_S64x64_S10000x64_1_0_0_1_n_n.lhsIdx (ix2 r c) ((contrEquiv1 dot_S10000x64_S64x64_S10000x64_1_0_0_1_n_n 64 rfl rfl).symm k) = ix2 r k := by
    funext a; apply Fin.ext
    match a with
    | ⟨0, _⟩ => rfl
    | ⟨1, _⟩ => exact (DotDims.lhsIdx_val_of_single (cl := (1 : Fin 2)) dot_S10000x64_S64x64_S10000x64_1_0_0_1_n_n rfl _ _).trans (contrEquiv1_symm_val dot_S10000x64_S64x64_S10000x64_1_0_0_1_n_n 64 rfl rfl k)
  have e2 : dot_S10000x64_S64x64_S10000x64_1_0_0_1_n_n.rhsIdx (ix2 r c) ((contrEquiv1 dot_S10000x64_S64x64_S10000x64_1_0_0_1_n_n 64 rfl rfl).symm k) = ix2 k c := by
    funext a; apply Fin.ext
    match a with
    | ⟨0, _⟩ => exact (DotDims.rhsIdx_val_of_single (cr := (0 : Fin 2)) dot_S10000x64_S64x64_S10000x64_1_0_0_1_n_n rfl _ _).trans (contrEquiv1_symm_val dot_S10000x64_S64x64_S10000x64_1_0_0_1_n_n 64 rfl rfl k)
    | ⟨1, _⟩ => rfl
  have e3 : Cert.ReferenceIdeal.dot_S100000x64_S64x64_S100000x64_1_0_0_1_n_n.lhsIdx (ix2 (⟨q * 10000 + r.val, by omega⟩ : Fin 100000) c) ((contrEquiv1 Cert.ReferenceIdeal.dot_S100000x64_S64x64_S100000x64_1_0_0_1_n_n 64 rfl rfl).symm k)
      = ix2 (⟨q * 10000 + r.val, by omega⟩ : Fin 100000) k := by
    funext a; apply Fin.ext
    match a with
    | ⟨0, _⟩ => rfl
    | ⟨1, _⟩ => exact (DotDims.lhsIdx_val_of_single (cl := (1 : Fin 2)) Cert.ReferenceIdeal.dot_S100000x64_S64x64_S100000x64_1_0_0_1_n_n rfl _ _).trans (contrEquiv1_symm_val Cert.ReferenceIdeal.dot_S100000x64_S64x64_S100000x64_1_0_0_1_n_n 64 rfl rfl k)
  have e4 : Cert.ReferenceIdeal.dot_S100000x64_S64x64_S100000x64_1_0_0_1_n_n.rhsIdx (ix2 (⟨q * 10000 + r.val, by omega⟩ : Fin 100000) c) ((contrEquiv1 Cert.ReferenceIdeal.dot_S100000x64_S64x64_S100000x64_1_0_0_1_n_n 64 rfl rfl).symm k) = ix2 k c := by
    funext a; apply Fin.ext
    match a with
    | ⟨0, _⟩ => exact (DotDims.rhsIdx_val_of_single (cr := (0 : Fin 2)) Cert.ReferenceIdeal.dot_S100000x64_S64x64_S100000x64_1_0_0_1_n_n rfl _ _).trans (contrEquiv1_symm_val Cert.ReferenceIdeal.dot_S100000x64_S64x64_S100000x64_1_0_0_1_n_n 64 rfl rfl k)
    | ⟨1, _⟩ => rfl
  rw [e1, e2, e3, e4, hx r k]

/-- What a dense-step body stores: its block of `X` times its copy of `W`, accumulated from zero (the roundings of the
    operands to bf16 are the identity at the extended reals). -/
def blockProduct (xb : FVec Ideal S10000x64 .f32) (wb : FVec Ideal S64x64 .f32) : FVec Ideal S10000x64 .f32 :=
  matmul dot_S10000x64_S64x64_S10000x64_1_0_0_1_n_n none (truncf .bf16 xb bitsLt_bf16_f32) (truncf .bf16 wb bitsLt_bf16_f32)
    (constant S10000x64 .f32 0x00000000#32)

theorem pay0_eq (xb : FVec Ideal S10000x64 .f32) (wb : FVec Ideal S64x64 .f32) : k0_pay1 (F := Ideal) xb wb = blockProduct xb wb := rfl

theorem pay2_eq (xb : FVec Ideal S10000x64 .f32) (wb : FVec Ideal S64x64 .f32) : k2_pay1 (F := Ideal) xb wb = blockProduct xb wb := by
  show matmul dot_S10000x64_S64x64_S10000x64_1_0_0_1_n_n none
      (truncf .bf16 (shapeCast S10000x64 xb shapeCasts_S10000x64_S10000x64) bitsLt_bf16_f32) (truncf .bf16 wb bitsLt_bf16_f32)
      (constant S10000x64 .f32 0x00000000#32) = _
  rw [shapeCast_self]; rfl

theorem pay4_eq (xb : FVec Ideal S10000x64 .f32) (wb : FVec Ideal S64x64 .f32) : k4_pay1 (F := Ideal) xb wb = blockProduct xb wb := by
  show matmul dot_S10000x64_S64x64_S10000x64_1_0_0_1_n_n none
      (truncf .bf16 (shapeCast S10000x64 xb shapeCasts_S10000x64_S10000x64) bitsLt_bf16_f32) (truncf .bf16 wb bitsLt_bf16_f32)
      (constant S10000x64 .f32 0x00000000#32) = _
  rw [shapeCast_self]; rfl

/-- The block product at an index `y` of the block is the whole product at the index `i` of the array that `y` is:
    `q` the block's number, `xb` the block of `X` (`hx`), `wb` all of `W`. -/
theorem mm_at (q : Nat) (hq : q < 10) (X : FVec Ideal Cert.ReferenceIdeal.S100000x64 .f32) (W : FVec Ideal S64x64 .f32)
    (xb : FVec Ideal S10000x64 .f32) (wb : FVec Ideal S64x64 .f32)
    (hx : ∀ (y' : S10000x64.Idx) (i' : Cert.ReferenceIdeal.S100000x64.Idx), (i' 0).val = q * 10000 + (y' 0).val → (i' 1).val = (y' 1).val → xb y' = X i')
    (hw : wb = W)
    (y : S10000x64.Idx) (i : Cert.ReferenceIdeal.S100000x64.Idx) (hi0 : (i 0).val = q * 10000 + (y 0).val) (hi1 : (i 1).val = (y 1).val) :
    blockProduct xb wb y = Cert.Gcn.dense (F := Ideal) X W i := by
  obtain ⟨r, s, rfl⟩ : ∃ (r : Fin 10000) (s : Fin 64), y = ix2 r s := ⟨y 0, y 1, eq_ix2 y⟩
  have hi : i = ix2 (⟨q * 10000 + r.val, by omega⟩ : Fin 100000) s := by
    funext a; apply Fin.ext
    match a with
    | ⟨0, _⟩ => exact hi0
    | ⟨1, _⟩ => exact hi1
  subst hw
  rw [hi]
  unfold blockProduct
  have ht1 : (truncf .bf16 xb bitsLt_bf16_f32 : FVec Ideal S10000x64 .bf16) = xb := rfl
  have ht2 : (truncf .bf16 wb bitsLt_bf16_f32 : FVec Ideal S64x64 .bf16) = wb := rfl
  rw [matmul_zero_eq_dotGeneral]
  exact dense_block q hq X wb xb (fun r' k => hx (ix2 r' k) (ix2 _ k) rfl rfl) r s

/-! ## Bias and activation -/

/-- On one extended real: `z` where `z > 0` and `exp z - 1` elsewhere, against the same with `1 · (exp z' - 1)`, `z'`
    being `z` where `z > 0` fails and zero where it holds (a branch that is then not taken). -/
theorem elu_scalar (z : Ideal .f32) :
    Scalar.select (FloatOps.cmpf .ogt z (Scalar.ofBits .f32 0x00000000#32)) z (FloatOps.subf (FloatOps.exp z) (Scalar.ofBits .f32 0x3F800000#32))
      = Scalar.select (FloatOps.cmpf .ogt z (Scalar.ofBits .f32 0x00000000#32)) z
          (FloatOps.mulf (Scalar.ofBits .f32 0x3F800000#32)
            (FloatOps.hostUnary .expm1 (Scalar.select (FloatOps.cmpf .ogt z (Scalar.ofBits .f32 0x00000000#32)) (Scalar.ofBits .f32 0x00000000#32) z))) := by
  rcases BitVec.eq_zero_or_eq_one (FloatOps.cmpf .ogt z (Scalar.ofBits .f32 0x00000000#32)) with h | h
  · rw [h, select_zero, select_zero, select_zero]
    simp only [Ideal.subf_def, Ideal.exp_def, Ideal.ofBits_def, Ideal.ofBits_one_f32, Ideal.mulf_def, Ideal.hostUnary_expm1_def, one_mul]
  · rw [h, select_one, select_one]

/-- One row block of `elu (a + bias)`: the kernel's block payload at `(r, t)` is the whole-array function at row
    `q · 10000 + r`. -/
theorem act_block (q : Nat) (hq : q < 10) (A : FVec Ideal Cert.ReferenceIdeal.S100000x64 .f32) (b : FVec Ideal Cert.ReferenceIdeal.S64 .f32)
    (ab : FVec Ideal S10000x64 .f32) (bb : FVec Ideal S1x64 .f32)
    (ha : ∀ (r : Fin 10000) (t : Fin 64), ab (ix2 r t) = A (ix2 (⟨q * 10000 + r.val, by omega⟩ : Fin 100000) t))
    (hb : ∀ t : Fin 64, bb (ix2 (0 : Fin 1) t) = b (ix1 t))
    (r : Fin 10000) (t : Fin 64) :
    k1_pay1 (F := Ideal) bb ab (ix2 r t)
      = Cert.Gcn.elu (F := Ideal) (Cert.Gcn.addBias (F := Ideal) A b) (ix2 (⟨q * 10000 + r.val, by omega⟩ : Fin 100000) t) := by
  have hbias : broadcastTo S10000x64 (shapeCast S1x64 (shapeCast S1x64 bb shapeCasts_S1x64_S1x64) shapeCasts_S1x64_S1x64) broadcasts_S1x64_S10000x64 (ix2 r t)
      = b (ix1 t) := by
    rw [shapeCast_self, shapeCast_self]
    refine (broadcastTo_apply bb broadcasts_S1x64_S10000x64 (ix2 r t) (ix2 (0 : Fin 1) t) ?_).trans (hb t)
    intro a
    match a with
    | ⟨0, _⟩ => rfl
    | ⟨1, _⟩ => rfl
  have hbias' : broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b) (ix2 (⟨q * 10000 + r.val, by omega⟩ : Fin 100000) t)
      = b (ix1 t) := by
    refine (broadcastInDim_oneRow_apply _ _ _ t).trans ?_
    refine broadcastInDim_apply ![1] _ b (ix2 (0 : Fin 1) t) (ix1 t) ?_
    intro a
    match a with
    | ⟨0, _⟩ => rfl
  rw [shapeCast_self, shapeCast_self] at hbias
  unfold k1_pay1 Cert.Gcn.elu Cert.Gcn.addBias
  simp only [select_apply, cmpf_apply, addf_apply, subf_apply, mulf_apply, broadcast_apply, shapeCast_self]
  show Scalar.select (FloatOps.cmpf .ogt (FloatOps.addf (ab (ix2 r t)) (broadcastTo S10000x64 bb broadcasts_S1x64_S10000x64 (ix2 r t))) (Scalar.ofBits (F := Ideal) .f32 0x00000000#32)) (FloatOps.addf (ab (ix2 r t)) (broadcastTo S10000x64 bb broadcasts_S1x64_S10000x64 (ix2 r t))) (FloatOps.subf (FloatOps.exp (FloatOps.addf (ab (ix2 r t)) (broadcastTo S10000x64 bb broadcasts_S1x64_S10000x64 (ix2 r t)))) (Scalar.ofBits (F := Ideal) .f32 0x3F800000#32))
    = Scalar.select (FloatOps.cmpf .ogt (FloatOps.addf (A (ix2 (⟨q * 10000 + r.val, by omega⟩ : Fin 100000) t)) (broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b) (ix2 (⟨q * 10000 + r.val, by omega⟩ : Fin 100000) t))) (Scalar.ofBits (F := Ideal) .f32 0x00000000#32)) (FloatOps.addf (A (ix2 (⟨q * 10000 + r.val, by omega⟩ : Fin 100000) t)) (broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b) (ix2 (⟨q * 10000 + r.val, by omega⟩ : Fin 100000) t)))
        (FloatOps.mulf (Scalar.ofBits (F := Ideal) .f32 0x3F800000#32) (FloatOps.hostUnary .expm1 (Scalar.select (FloatOps.cmpf .ogt (FloatOps.addf (A (ix2 (⟨q * 10000 + r.val, by omega⟩ : Fin 100000) t)) (broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b) (ix2 (⟨q * 10000 + r.val, by omega⟩ : Fin 100000) t))) (Scalar.ofBits (F := Ideal) .f32 0x00000000#32)) (Scalar.ofBits (F := Ideal) .f32 0x00000000#32) (FloatOps.addf (A (ix2 (⟨q * 10000 + r.val, by omega⟩ : Fin 100000) t)) (broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b) (ix2 (⟨q * 10000 + r.val, by omega⟩ : Fin 100000) t))))))
  rw [hbias, hbias', ha r t]
  exact elu_scalar _

theorem pay3_eq (bb : FVec Ideal S1x64 .f32) (ab : FVec Ideal S10000x64 .f32) : k3_pay1 (F := Ideal) bb ab = k1_pay1 (F := Ideal) bb ab := rfl

/-- The same at an index `y` of the block and the index `i` of the array that `y` is. -/
theorem act_at (q : Nat) (hq : q < 10) (A : FVec Ideal Cert.ReferenceIdeal.S100000x64 .f32) (b : FVec Ideal Cert.ReferenceIdeal.S64 .f32)
    (ab : FVec Ideal S10000x64 .f32) (bb : FVec Ideal S1x64 .f32)
    (ha : ∀ (y' : S10000x64.Idx) (i' : Cert.ReferenceIdeal.S100000x64.Idx), (i' 0).val = q * 10000 + (y' 0).val → (i' 1).val = (y' 1).val → ab y' = A i')
    (hb : ∀ t : Fin 64, bb (ix2 (0 : Fin 1) t) = b (ix1 t))
    (y : S10000x64.Idx) (i : Cert.ReferenceIdeal.S100000x64.Idx) (hi0 : (i 0).val = q * 10000 + (y 0).val) (hi1 : (i 1).val = (y 1).val) :
    k1_pay1 (F := Ideal) bb ab y = Cert.Gcn.elu (F := Ideal) (Cert.Gcn.addBias (F := Ideal) A b) i := by
  obtain ⟨r, s, rfl⟩ : ∃ (r : Fin 10000) (s : Fin 64), y = ix2 r s := ⟨y 0, y 1, eq_ix2 y⟩
  have hi : i = ix2 (⟨q * 10000 + r.val, by omega⟩ : Fin 100000) s := by
    funext a; apply Fin.ext
    match a with
    | ⟨0, _⟩ => exact hi0
    | ⟨1, _⟩ => exact hi1
  rw [hi]
  exact act_block q hq A b ab bb (fun r' k => ha (ix2 r' k) (ix2 _ k) rfl rfl) hb r s

/-- The last layer's body: the bias row added to every row of the block, no activation. -/
theorem bias_block (q : Nat) (hq : q < 10) (A : FVec Ideal Cert.ReferenceIdeal.S100000x64 .f32) (b : FVec Ideal Cert.ReferenceIdeal.S64 .f32)
    (ab : FVec Ideal S10000x64 .f32) (bb : FVec Ideal S1x64 .f32)
    (ha : ∀ (r : Fin 10000) (t : Fin 64), ab (ix2 r t) = A (ix2 (⟨q * 10000 + r.val, by omega⟩ : Fin 100000) t))
    (hb : ∀ t : Fin 64, bb (ix2 (0 : Fin 1) t) = b (ix1 t))
    (r : Fin 10000) (t : Fin 64) :
    k5_pay1 (F := Ideal) bb ab (ix2 r t)
      = Cert.Gcn.addBias (F := Ideal) A b (ix2 (⟨q * 10000 + r.val, by omega⟩ : Fin 100000) t) := by
  have hbias : broadcastTo S10000x64 (shapeCast S1x64 (shapeCast S1x64 bb shapeCasts_S1x64_S1x64) shapeCasts_S1x64_S1x64) broadcasts_S1x64_S10000x64 (ix2 r t)
      = b (ix1 t) := by
    rw [shapeCast_self, shapeCast_self]
    refine (broadcastTo_apply bb broadcasts_S1x64_S10000x64 (ix2 r t) (ix2 (0 : Fin 1) t) ?_).trans (hb t)
    intro a
    match a with
    | ⟨0, _⟩ => rfl
    | ⟨1, _⟩ => rfl
  have hbias' : broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b) (ix2 (⟨q * 10000 + r.val, by omega⟩ : Fin 100000) t)
      = b (ix1 t) := by
    refine (broadcastInDim_oneRow_apply _ _ _ t).trans ?_
    refine broadcastInDim_apply ![1] _ b (ix2 (0 : Fin 1) t) (ix1 t) ?_
    intro a
    match a with
    | ⟨0, _⟩ => rfl
  rw [shapeCast_self, shapeCast_self] at hbias
  unfold k5_pay1 Cert.Gcn.addBias
  simp only [addf_apply, shapeCast_self]
  show FloatOps.addf (ab (ix2 r t)) (broadcastTo S10000x64 bb broadcasts_S1x64_S10000x64 (ix2 r t)) = FloatOps.addf (A (ix2 (⟨q * 10000 + r.val, by omega⟩ : Fin 100000) t)) (broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b) (ix2 (⟨q * 10000 + r.val, by omega⟩ : Fin 100000) t))
  rw [hbias, hbias', ha r t]

theorem bias_at (q : Nat) (hq : q < 10) (A : FVec Ideal Cert.ReferenceIdeal.S100000x64 .f32) (b : FVec Ideal Cert.ReferenceIdeal.S64 .f32)
    (ab : FVec Ideal S10000x64 .f32) (bb : FVec Ideal S1x64 .f32)
    (ha : ∀ (y' : S10000x64.Idx) (i' : Cert.ReferenceIdeal.S100000x64.Idx), (i' 0).val = q * 10000 + (y' 0).val → (i' 1).val = (y' 1).val → ab y' = A i')
    (hb : ∀ t : Fin 64, bb (ix2 (0 : Fin 1) t) = b (ix1 t))
    (y : S10000x64.Idx) (i : Cert.ReferenceIdeal.S100000x64.Idx) (hi0 : (i 0).val = q * 10000 + (y 0).val) (hi1 : (i 1).val = (y 1).val) :
    k5_pay1 (F := Ideal) bb ab y = Cert.Gcn.addBias (F := Ideal) A b i := by
  obtain ⟨r, s, rfl⟩ : ∃ (r : Fin 10000) (s : Fin 64), y = ix2 r s := ⟨y 0, y 1, eq_ix2 y⟩
  have hi : i = ix2 (⟨q * 10000 + r.val, by omega⟩ : Fin 100000) s := by
    funext a; apply Fin.ext
    match a with
    | ⟨0, _⟩ => exact hi0
    | ⟨1, _⟩ => exact hi1
  rw [hi]
  exact bias_block q hq A b ab bb (fun r' k => ha (ix2 r' k) (ix2 _ k) rfl rfl) hb r s

end Cert.KernelIdeal.Hand

end
-- ==== Proof.KDense.lean ====
/-
  The three dense regions, each at the buffer contents `V` it is entered with: the ten grid points write back the ten
  row blocks of the output, point `t`'s block being rows `10000 t … 10000 t + 9999` of `X · W` (the body's block product,
  KBlock.lean `mm_at`, of the block of `X` the point fetched and all of `W`); the blocks cover the output, so the output
  array ends at `dense X W`.
-/
import proofs.«143652_j17291538334379_1_alg».proof.Proof.Gen.KernelIdeal.Frame
import proofs.«143652_j17291538334379_1_alg».proof.Proof.Spec
import proofs.«143652_j17291538334379_1_alg».proof.Proof.KBlock
import Idealize.ShloMosaic.Lib.ValueIdx
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable [Cert.ReferenceIdeal.Facts]
variable (V : (c : Dev nD) → (b : Ref sig .tc) → Buf (Elt Ideal) ((c : Thread nD τ).loc b))

/-! ## Region 0: `main_v30` ← `main_arg0` · `main_arg2` -/

/-- The printed index maps of region 0, decided over its ten grid points: point `t` takes row block `t` of the input
    and of the output, and the one block of the weights. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the dense product of the two input arrays as the region finds them. -/
theorem flushed0 (c : Dev nD) (t : Fin cfg0.N) :
    (dat0 V c).flushed 2 t = ((cfg0.win 2).blk t).view.read (Elt Ideal)
      (Cert.Gcn.dense (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  funext j
  obtain ⟨e0, e1, e2, e3, e4, e5⟩ := idx_facts0 t
  have hN : t.val < 10 := lt_of_lt_of_eq t.isLt N_0
  show k0_pay1 (iblk0 V c 0 t) (iblk0 V c 1 t) j
    = Cert.Gcn.dense (F := Ideal) (V c main_arg0) (V c main_arg2) (((cfg0.win 2).blk t).view.emb j)
  refine (congrFun (pay0_eq (iblk0 V c 0 t) (iblk0 V c 1 t)) j).trans ?_
  refine mm_at t.val hN (V c main_arg0) (V c main_arg2) (iblk0 V c 0 t) (iblk0 V c 1 t) ?_ ?_ j _ ?_ ?_
  · intro y' i' h0 h1
    show V c main_arg0 (((cfg0.win 0).blk t).view.emb y') = V c main_arg0 i'
    refine congrArg (V c main_arg0) (funext fun a => Fin.ext ?_)
    match a with
    | ⟨0, _⟩ => show win0_0.index t (0 : Fin 2) * 10000 + 1 * (y' 0).val = (i' 0).val; rw [e0, e4, h0]; omega
    | ⟨1, _⟩ => show win0_0.index t (1 : Fin 2) * 64 + 1 * (y' 1).val = (i' 1).val; rw [e1, h1]; omega
  · funext y'
    show V c main_arg2 (((cfg0.win 1).blk t).view.emb y') = V c main_arg2 y'
    refine congrArg (V c main_arg2) (funext fun a => Fin.ext ?_)
    match a with
    | ⟨0, _⟩ => show win0_1.index t (0 : Fin 2) * 64 + 1 * (y' 0).val = (y' 0).val; rw [e2]; omega
    | ⟨1, _⟩ => show win0_1.index t (1 : Fin 2) * 64 + 1 * (y' 1).val = (y' 1).val; rw [e3]; omega
  · show win0_2.index t (0 : Fin 2) * 10000 + 1 * (j 0).val = t.val * 10000 + (j 0).val; rw [e4]; omega
  · show win0_2.index t (1 : Fin 2) * 64 + 1 * (j 1).val = (j 1).val; rw [e5]; omega

/-- Every row of the output lies in the block of the point `row / 10000`. -/
theorem cover0 (i : Cert.KernelIdeal.S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 10000 < cfg0.N := by rw [show cfg0.N = 10 from N_0]; omega
  obtain ⟨e0, e1, e2, e3, e4, e5⟩ := idx_facts0 ⟨(i 0).val / 10000, ht⟩
  refine ⟨⟨(i 0).val / 10000, ht⟩, flush0_2 _, ?_⟩
  show i ∈ ((View.whole main_v30).slice (win0_2.rect ⟨(i 0).val / 10000, ht⟩)).set
  rw [View.set_slice_whole, Rect.mem_set_unit]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e5]; omega

/-- Region 0 leaves its output array at the dense product of its two input arrays. -/
theorem final0 (c : Dev nD) :
    (dat0 V c).arrAt 2 cfg0.N = Cert.Gcn.dense (F := Ideal) (V c main_arg0) (V c main_arg2) :=
  (dat0 V c).arrAt_eq_of_cover 2 _ (fun t _ => flushed0 V c t) cover0

/-! ## Region 2: `main_v46` ← `main_v45` · `main_arg4` -/

/-- The printed index maps of region 2, decided over its ten grid points: point `t` takes row block `t` of the input
    and of the output, and the one block of the weights. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the dense product of the two input arrays as the region finds them. -/
theorem flushed2 (c : Dev nD) (t : Fin cfg2.N) :
    (dat2 V c).flushed 2 t = ((cfg2.win 2).blk t).view.read (Elt Ideal)
      (Cert.Gcn.dense (F := Ideal) (V c main_v45) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  funext j
  obtain ⟨e0, e1, e2, e3, e4, e5⟩ := idx_facts2 t
  have hN : t.val < 10 := lt_of_lt_of_eq t.isLt N_2
  show k2_pay1 (iblk2 V c 0 t) (iblk2 V c 1 t) j
    = Cert.Gcn.dense (F := Ideal) (V c main_v45) (V c main_arg4) (((cfg2.win 2).blk t).view.emb j)
  refine (congrFun (pay2_eq (iblk2 V c 0 t) (iblk2 V c 1 t)) j).trans ?_
  refine mm_at t.val hN (V c main_v45) (V c main_arg4) (iblk2 V c 0 t) (iblk2 V c 1 t) ?_ ?_ j _ ?_ ?_
  · intro y' i' h0 h1
    show V c main_v45 (((cfg2.win 0).blk t).view.emb y') = V c main_v45 i'
    refine congrArg (V c main_v45) (funext fun a => Fin.ext ?_)
    match a with
    | ⟨0, _⟩ => show win2_0.index t (0 : Fin 2) * 10000 + 1 * (y' 0).val = (i' 0).val; rw [e0, e4, h0]; omega
    | ⟨1, _⟩ => show win2_0.index t (1 : Fin 2) * 64 + 1 * (y' 1).val = (i' 1).val; rw [e1, h1]; omega
  · funext y'
    show V c main_arg4 (((cfg2.win 1).blk t).view.emb y') = V c main_arg4 y'
    refine congrArg (V c main_arg4) (funext fun a => Fin.ext ?_)
    match a with
    | ⟨0, _⟩ => show win2_1.index t (0 : Fin 2) * 64 + 1 * (y' 0).val = (y' 0).val; rw [e2]; omega
    | ⟨1, _⟩ => show win2_1.index t (1 : Fin 2) * 64 + 1 * (y' 1).val = (y' 1).val; rw [e3]; omega
  · show win2_2.index t (0 : Fin 2) * 10000 + 1 * (j 0).val = t.val * 10000 + (j 0).val; rw [e4]; omega
  · show win2_2.index t (1 : Fin 2) * 64 + 1 * (j 1).val = (j 1).val; rw [e5]; omega

/-- Every row of the output lies in the block of the point `row / 10000`. -/
theorem cover2 (i : Cert.KernelIdeal.S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 10000 < cfg2.N := by rw [show cfg2.N = 10 from N_2]; omega
  obtain ⟨e0, e1, e2, e3, e4, e5⟩ := idx_facts2 ⟨(i 0).val / 10000, ht⟩
  refine ⟨⟨(i 0).val / 10000, ht⟩, flush2_2 _, ?_⟩
  show i ∈ ((View.whole main_v46).slice (win2_2.rect ⟨(i 0).val / 10000, ht⟩)).set
  rw [View.set_slice_whole, Rect.mem_set_unit]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 64 ≤ (i 1).val
      ∧ (i 1).val < win2_2.index ⟨(i 0).val / 10000, ht⟩ (1 : Fin 2) * 64 + 64
    rw [e5]; omega

/-- Region 2 leaves its output array at the dense product of its two input arrays. -/
theorem final2 (c : Dev nD) :
    (dat2 V c).arrAt 2 cfg2.N = Cert.Gcn.dense (F := Ideal) (V c main_v45) (V c main_arg4) :=
  (dat2 V c).arrAt_eq_of_cover 2 _ (fun t _ => flushed2 V c t) cover2

/-! ## Region 4: `main_v62` ← `main_v61` · `main_arg6` -/

/-- The printed index maps of region 4, decided over its ten grid points: point `t` takes row block `t` of the input
    and of the output, and the one block of the weights. -/
theorem idx_facts4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the dense product of the two input arrays as the region finds them. -/
theorem flushed4 (c : Dev nD) (t : Fin cfg4.N) :
    (dat4 V c).flushed 2 t = ((cfg4.win 2).blk t).view.read (Elt Ideal)
      (Cert.Gcn.dense (F := Ideal) (V c main_v61) (V c main_arg6)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x64) hz]
  funext j
  obtain ⟨e0, e1, e2, e3, e4, e5⟩ := idx_facts4 t
  have hN : t.val < 10 := lt_of_lt_of_eq t.isLt N_4
  show k4_pay1 (iblk4 V c 0 t) (iblk4 V c 1 t) j
    = Cert.Gcn.dense (F := Ideal) (V c main_v61) (V c main_arg6) (((cfg4.win 2).blk t).view.emb j)
  refine (congrFun (pay4_eq (iblk4 V c 0 t) (iblk4 V c 1 t)) j).trans ?_
  refine mm_at t.val hN (V c main_v61) (V c main_arg6) (iblk4 V c 0 t) (iblk4 V c 1 t) ?_ ?_ j _ ?_ ?_
  · intro y' i' h0 h1
    show V c main_v61 (((cfg4.win 0).blk t).view.emb y') = V c main_v61 i'
    refine congrArg (V c main_v61) (funext fun a => Fin.ext ?_)
    match a with
    | ⟨0, _⟩ => show win4_0.index t (0 : Fin 2) * 10000 + 1 * (y' 0).val = (i' 0).val; rw [e0, e4, h0]; omega
    | ⟨1, _⟩ => show win4_0.index t (1 : Fin 2) * 64 + 1 * (y' 1).val = (i' 1).val; rw [e1, h1]; omega
  · funext y'
    show V c main_arg6 (((cfg4.win 1).blk t).view.emb y') = V c main_arg6 y'
    refine congrArg (V c main_arg6) (funext fun a => Fin.ext ?_)
    match a with
    | ⟨0, _⟩ => show win4_1.index t (0 : Fin 2) * 64 + 1 * (y' 0).val = (y' 0).val; rw [e2]; omega
    | ⟨1, _⟩ => show win4_1.index t (1 : Fin 2) * 64 + 1 * (y' 1).val = (y' 1).val; rw [e3]; omega
  · show win4_2.index t (0 : Fin 2) * 10000 + 1 * (j 0).val = t.val * 10000 + (j 0).val; rw [e4]; omega
  · show win4_2.index t (1 : Fin 2) * 64 + 1 * (j 1).val = (j 1).val; rw [e5]; omega

/-- Every row of the output lies in the block of the point `row / 10000`. -/
theorem cover4 (i : Cert.KernelIdeal.S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have ht : (i 0).val / 10000 < cfg4.N := by rw [show cfg4.N = 10 from N_4]; omega
  obtain ⟨e0, e1, e2, e3, e4, e5⟩ := idx_facts4 ⟨(i 0).val / 10000, ht⟩
  refine ⟨⟨(i 0).val / 10000, ht⟩, flush4_2 _, ?_⟩
  show i ∈ ((View.whole main_v62).slice (win4_2.rect ⟨(i 0).val / 10000, ht⟩)).set
  rw [View.set_slice_whole, Rect.mem_set_unit]
  intro a
  match a with
  | ⟨0, _⟩ =>
    show win4_2.index ⟨(i 0).val / 10000, ht⟩ (0 : Fin 2) * 10000 ≤ (i 0).val
      ∧ (i 0).val < win4_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, ht⟩ (1 : Fin 2) * 64 ≤ (i 1).val
      ∧ (i 1).val < win4_2.index ⟨(i 0).val / 10000, ht⟩ (1 : Fin 2) * 64 + 64
    rw [e5]; omega

/-- Region 4 leaves its output array at the dense product of its two input arrays. -/
theorem final4 (c : Dev nD) :
    (dat4 V c).arrAt 2 cfg4.N = Cert.Gcn.dense (F := Ideal) (V c main_v61) (V c main_arg6) :=
  (dat4 V c).arrAt_eq_of_cover 2 _ (fun t _ => flushed4 V c t) cover4

end Cert.KernelIdeal.Hand

end
-- ==== Proof.KAct.lean ====
/-
  The three bias-and-activation regions, each at the buffer contents `V` it is entered with: point `t` writes back
  rows `10000 t … 10000 t + 9999` of `elu (A + bias)` (regions 1 and 3; KBlock.lean `act_at`) or of `A + bias` (region 5,
  the last layer; `bias_at`), from the block of `A` it fetched and the one-row bias array; the ten blocks cover the
  output. The bias reaches the region as a one-row array (the host reshapes the vector before the call): `hb` says
  which vector that row is.
-/
import proofs.«143652_j17291538334379_1_alg».proof.Proof.Gen.KernelIdeal.Frame
import proofs.«143652_j17291538334379_1_alg».proof.Proof.Spec
import proofs.«143652_j17291538334379_1_alg».proof.Proof.KBlock
import Idealize.ShloMosaic.Lib.ValueIdx
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable [Cert.ReferenceIdeal.Facts]
variable (V : (c : Dev nD) → (b : Ref sig .tc) → Buf (Elt Ideal) ((c : Thread nD τ).loc b))

/-! ## Region 1: `main_v45` ← elu (`main_v43` + bias) -/

/-- The printed index maps of region 1, decided over its ten grid points: point `t` takes row block `t` of the input
    and of the output, and the one block of the bias row. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `elu` of the input array plus the bias row, `b` being the bias the one-row array `main_v44` holds. -/
theorem flushed1 (c : Dev nD) (b : FVec Ideal Cert.ReferenceIdeal.S64 .f32)
    (hb : ∀ s : Fin 64, (V c main_v44 : Vec Ideal S1x64 .f32) (ix2 (0 : Fin 1) s) = b (ix1 s)) (t : Fin cfg1.N) :
    (dat1 V c).flushed 2 t = ((cfg1.win 2).blk t).view.read (Elt Ideal) (Cert.Gcn.elu (F := Ideal) (Cert.Gcn.addBias (F := Ideal) (V c main_v43) b)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  funext j
  obtain ⟨e0, e1, e2, e3, e4, e5⟩ := idx_facts1 t
  have hN : t.val < 10 := lt_of_lt_of_eq t.isLt N_1
  show k1_pay1 (iblk1 V c 1 t) (iblk1 V c 0 t) j = (Cert.Gcn.elu (F := Ideal) (Cert.Gcn.addBias (F := Ideal) (V c main_v43) b)) (((cfg1.win 2).blk t).view.emb j)
  refine act_at t.val hN (V c main_v43) b (iblk1 V c 0 t) (iblk1 V c 1 t) ?_ ?_ j _ ?_ ?_
  · intro y' i' h0 h1
    show V c main_v43 (((cfg1.win 0).blk t).view.emb y') = V c main_v43 i'
    refine congrArg (V c main_v43) (funext fun a => Fin.ext ?_)
    match a with
    | ⟨0, _⟩ => show win1_0.index t (0 : Fin 2) * 10000 + 1 * (y' 0).val = (i' 0).val; rw [e0, e4, h0]; omega
    | ⟨1, _⟩ => show win1_0.index t (1 : Fin 2) * 64 + 1 * (y' 1).val = (i' 1).val; rw [e1, h1]; omega
  · intro s
    show V c main_v44 (((cfg1.win 1).blk t).view.emb (ix2 (0 : Fin 1) s)) = b (ix1 s)
    refine (congrArg (V c main_v44) (funext fun a => Fin.ext ?_)).trans (hb s)
    match a with
    | ⟨0, _⟩ => show win1_1.index t (0 : Fin 2) * 1 + 1 * 0 = 0; rw [e2]
    | ⟨1, _⟩ => show win1_1.index t (1 : Fin 2) * 64 + 1 * s.val = s.val; rw [e3]; omega
  · show win1_2.index t (0 : Fin 2) * 10000 + 1 * (j 0).val = t.val * 10000 + (j 0).val; rw [e4]; omega
  · show win1_2.index t (1 : Fin 2) * 64 + 1 * (j 1).val = (j 1).val; rw [e5]; omega

/-- Every row of the output lies in the block of the point `row / 10000`. -/
theorem cover1 (i : Cert.KernelIdeal.S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have ht : (i 0).val / 10000 < cfg1.N := by rw [show cfg1.N = 10 from N_1]; omega
  obtain ⟨e0, e1, e2, e3, e4, e5⟩ := idx_facts1 ⟨(i 0).val / 10000, ht⟩
  refine ⟨⟨(i 0).val / 10000, ht⟩, flush1_2 _, ?_⟩
  show i ∈ ((View.whole main_v45).slice (win1_2.rect ⟨(i 0).val / 10000, ht⟩)).set
  rw [View.set_slice_whole, Rect.mem_set_unit]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e5]; omega

/-- Region 1 leaves its output array at `elu` of the input array plus the bias row. -/
theorem final1 (c : Dev nD) (b : FVec Ideal Cert.ReferenceIdeal.S64 .f32)
    (hb : ∀ s : Fin 64, (V c main_v44 : Vec Ideal S1x64 .f32) (ix2 (0 : Fin 1) s) = b (ix1 s)) :
    (dat1 V c).arrAt 2 cfg1.N = Cert.Gcn.elu (F := Ideal) (Cert.Gcn.addBias (F := Ideal) (V c main_v43) b) :=
  (dat1 V c).arrAt_eq_of_cover 2 _ (fun t _ => flushed1 V c b hb t) cover1

/-! ## Region 3: `main_v61` ← elu (`main_v59` + bias) -/

/-- The printed index maps of region 3, decided over its ten grid points: point `t` takes row block `t` of the input
    and of the output, and the one block of the bias row. -/
theorem idx_facts3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `elu` of the input array plus the bias row, `b` being the bias the one-row array `main_v60` holds. -/
theorem flushed3 (c : Dev nD) (b : FVec Ideal Cert.ReferenceIdeal.S64 .f32)
    (hb : ∀ s : Fin 64, (V c main_v60 : Vec Ideal S1x64 .f32) (ix2 (0 : Fin 1) s) = b (ix1 s)) (t : Fin cfg3.N) :
    (dat3 V c).flushed 2 t = ((cfg3.win 2).blk t).view.read (Elt Ideal) (Cert.Gcn.elu (F := Ideal) (Cert.Gcn.addBias (F := Ideal) (V c main_v59) b)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  funext j
  obtain ⟨e0, e1, e2, e3, e4, e5⟩ := idx_facts3 t
  have hN : t.val < 10 := lt_of_lt_of_eq t.isLt N_3
  show k3_pay1 (iblk3 V c 1 t) (iblk3 V c 0 t) j = (Cert.Gcn.elu (F := Ideal) (Cert.Gcn.addBias (F := Ideal) (V c main_v59) b)) (((cfg3.win 2).blk t).view.emb j)
  refine (congrFun (pay3_eq (iblk3 V c 1 t) (iblk3 V c 0 t)) j).trans ?_
  refine act_at t.val hN (V c main_v59) b (iblk3 V c 0 t) (iblk3 V c 1 t) ?_ ?_ j _ ?_ ?_
  · intro y' i' h0 h1
    show V c main_v59 (((cfg3.win 0).blk t).view.emb y') = V c main_v59 i'
    refine congrArg (V c main_v59) (funext fun a => Fin.ext ?_)
    match a with
    | ⟨0, _⟩ => show win3_0.index t (0 : Fin 2) * 10000 + 1 * (y' 0).val = (i' 0).val; rw [e0, e4, h0]; omega
    | ⟨1, _⟩ => show win3_0.index t (1 : Fin 2) * 64 + 1 * (y' 1).val = (i' 1).val; rw [e1, h1]; omega
  · intro s
    show V c main_v60 (((cfg3.win 1).blk t).view.emb (ix2 (0 : Fin 1) s)) = b (ix1 s)
    refine (congrArg (V c main_v60) (funext fun a => Fin.ext ?_)).trans (hb s)
    match a with
    | ⟨0, _⟩ => show win3_1.index t (0 : Fin 2) * 1 + 1 * 0 = 0; rw [e2]
    | ⟨1, _⟩ => show win3_1.index t (1 : Fin 2) * 64 + 1 * s.val = s.val; rw [e3]; omega
  · show win3_2.index t (0 : Fin 2) * 10000 + 1 * (j 0).val = t.val * 10000 + (j 0).val; rw [e4]; omega
  · show win3_2.index t (1 : Fin 2) * 64 + 1 * (j 1).val = (j 1).val; rw [e5]; omega

/-- Every row of the output lies in the block of the point `row / 10000`. -/
theorem cover3 (i : Cert.KernelIdeal.S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have ht : (i 0).val / 10000 < cfg3.N := by rw [show cfg3.N = 10 from N_3]; omega
  obtain ⟨e0, e1, e2, e3, e4, e5⟩ := idx_facts3 ⟨(i 0).val / 10000, ht⟩
  refine ⟨⟨(i 0).val / 10000, ht⟩, flush3_2 _, ?_⟩
  show i ∈ ((View.whole main_v61).slice (win3_2.rect ⟨(i 0).val / 10000, ht⟩)).set
  rw [View.set_slice_whole, Rect.mem_set_unit]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 64 ≤ (i 1).val
      ∧ (i 1).val < win3_2.index ⟨(i 0).val / 10000, ht⟩ (1 : Fin 2) * 64 + 64
    rw [e5]; omega

/-- Region 3 leaves its output array at `elu` of the input array plus the bias row. -/
theorem final3 (c : Dev nD) (b : FVec Ideal Cert.ReferenceIdeal.S64 .f32)
    (hb : ∀ s : Fin 64, (V c main_v60 : Vec Ideal S1x64 .f32) (ix2 (0 : Fin 1) s) = b (ix1 s)) :
    (dat3 V c).arrAt 2 cfg3.N = Cert.Gcn.elu (F := Ideal) (Cert.Gcn.addBias (F := Ideal) (V c main_v59) b) :=
  (dat3 V c).arrAt_eq_of_cover 2 _ (fun t _ => flushed3 V c b hb t) cover3

/-! ## Region 5: `main_v77` ← `main_v75` + bias -/

/-- The printed index maps of region 5, decided over its ten grid points: point `t` takes row block `t` of the input
    and of the output, and the one block of the bias row. -/
theorem idx_facts5 : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the input array plus the bias row, `b` being the bias the one-row array `main_v76` holds. -/
theorem flushed5 (c : Dev nD) (b : FVec Ideal Cert.ReferenceIdeal.S64 .f32)
    (hb : ∀ s : Fin 64, (V c main_v76 : Vec Ideal S1x64 .f32) (ix2 (0 : Fin 1) s) = b (ix1 s)) (t : Fin cfg5.N) :
    (dat5 V c).flushed 2 t = ((cfg5.win 2).blk t).view.read (Elt Ideal) (Cert.Gcn.addBias (F := Ideal) (V c main_v75) b) := by
  show (cfg5.win 2).cut (grid5.coords t) ((dat5 V c).after 2 t) = _
  rw [after5_2]
  unfold out5_2
  rw [View.canon_unit_zero hz]
  simp only [View.ld_unit_zero (S := S10000x64) hz, View.ld_unit_zero (S := S1x64) hz]
  funext j
  obtain ⟨e0, e1, e2, e3, e4, e5⟩ := idx_facts5 t
  have hN : t.val < 10 := lt_of_lt_of_eq t.isLt N_5
  show k5_pay1 (iblk5 V c 1 t) (iblk5 V c 0 t) j = (Cert.Gcn.addBias (F := Ideal) (V c main_v75) b) (((cfg5.win 2).blk t).view.emb j)
  refine bias_at t.val hN (V c main_v75) b (iblk5 V c 0 t) (iblk5 V c 1 t) ?_ ?_ j _ ?_ ?_
  · intro y' i' h0 h1
    show V c main_v75 (((cfg5.win 0).blk t).view.emb y') = V c main_v75 i'
    refine congrArg (V c main_v75) (funext fun a => Fin.ext ?_)
    match a with
    | ⟨0, _⟩ => show win5_0.index t (0 : Fin 2) * 10000 + 1 * (y' 0).val = (i' 0).val; rw [e0, e4, h0]; omega
    | ⟨1, _⟩ => show win5_0.index t (1 : Fin 2) * 64 + 1 * (y' 1).val = (i' 1).val; rw [e1, h1]; omega
  · intro s
    show V c main_v76 (((cfg5.win 1).blk t).view.emb (ix2 (0 : Fin 1) s)) = b (ix1 s)
    refine (congrArg (V c main_v76) (funext fun a => Fin.ext ?_)).trans (hb s)
    match a with
    | ⟨0, _⟩ => show win5_1.index t (0 : Fin 2) * 1 + 1 * 0 = 0; rw [e2]
    | ⟨1, _⟩ => show win5_1.index t (1 : Fin 2) * 64 + 1 * s.val = s.val; rw [e3]; omega
  · show win5_2.index t (0 : Fin 2) * 10000 + 1 * (j 0).val = t.val * 10000 + (j 0).val; rw [e4]; omega
  · show win5_2.index t (1 : Fin 2) * 64 + 1 * (j 1).val = (j 1).val; rw [e5]; omega

/-- Every row of the output lies in the block of the point `row / 10000`. -/
theorem cover5 (i : Cert.KernelIdeal.S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have ht : (i 0).val / 10000 < cfg5.N := by rw [show cfg5.N = 10 from N_5]; omega
  obtain ⟨e0, e1, e2, e3, e4, e5⟩ := idx_facts5 ⟨(i 0).val / 10000, ht⟩
  refine ⟨⟨(i 0).val / 10000, ht⟩, flush5_2 _, ?_⟩
  show i ∈ ((View.whole main_v77).slice (win5_2.rect ⟨(i 0).val / 10000, ht⟩)).set
  rw [View.set_slice_whole, Rect.mem_set_unit]
  intro a
  match a with
  | ⟨0, _⟩ =>
    show win5_2.index ⟨(i 0).val / 10000, ht⟩ (0 : Fin 2) * 10000 ≤ (i 0).val
      ∧ (i 0).val < win5_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, ht⟩ (1 : Fin 2) * 64 ≤ (i 1).val
      ∧ (i 1).val < win5_2.index ⟨(i 0).val / 10000, ht⟩ (1 : Fin 2) * 64 + 64
    rw [e5]; omega

/-- Region 5 leaves its output array at the input array plus the bias row. -/
theorem final5 (c : Dev nD) (b : FVec Ideal Cert.ReferenceIdeal.S64 .f32)
    (hb : ∀ s : Fin 64, (V c main_v76 : Vec Ideal S1x64 .f32) (ix2 (0 : Fin 1) s) = b (ix1 s)) :
    (dat5 V c).arrAt 2 cfg5.N = Cert.Gcn.addBias (F := Ideal) (V c main_v75) b :=
  (dat5 V c).arrAt_eq_of_cover 2 _ (fun t _ => flushed5 V c b hb t) cover5

end Cert.KernelIdeal.Hand

end
-- ==== Proof.KHost.lean ====
/-
  The kernel program's host stretches, read as the graph convolution's own terms.

  Between its kernel launches the kernel program's @main runs the same host operations as the reference: a
  preparation (three stretches in a row: the edge lists with their self loops and the in-degree's inverse square
  root; `_where`'s select zeroing the factor where the degree is not positive; the two gathers of the factor and
  their product, the edge weights), and before each layer's bias a propagation stretch — the features gathered at the
  sources, scaled by the edge weights, scatter-added at the targets — that ends by reshaping the layer's bias vector
  to a one-row matrix. The kernel program computes the edge weights once, in the preparation, and every propagation
  stretch reads them from the buffer they were left in.

  Each stretch is folded at any contents before it: the preparation leaves `srcs`, `dsts` and `edgeNorm` of the edge
  array and does not touch the arguments; a propagation stretch leaves `propagateAt` of the features, the edge lists
  and the weights it reads, the bias at row `0` of its reshaped copy, and does not touch the edge lists, the weights or
  the later layers' arguments. The records of shapes and dimension numbers are the kernel program's own; they are the
  reference's up to unfolding, which is what the closing computations check.
-/
import proofs.«143652_j17291538334379_1_alg».proof.Proof.Gen.KernelIdeal.Launch
import proofs.«143652_j17291538334379_1_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.ShloMosaic.StableHlo Idealize.ShloMosaic.ValueIdx Idealize.SL.Sem
  Cert.KernelIdeal Cert.KernelIdeal.Gen

variable {F : FTy → Type} [FloatOps F] [Cert.ReferenceIdeal.Facts]

/-! ## The preparation: three stretches in a row

The host's scatter-add, gather and inverse square root stay folded throughout: the equations never look inside them. -/

attribute [local irreducible] Host.scatterAdd Host.gather Host.rsqrt in
/-- The sources with the self loops appended. -/
theorem pre_v3 (V : Valuation τ sig (Elt F)) :
    after hostOps0_2 (after hostOps0_1 (after hostOps0 V)) (main_v3 : DevRef τ sig)
      = Cert.Gcn.srcs (F := F) (V (main_arg1 : DevRef τ sig)) := by
  after_results_simp
  rfl

attribute [local irreducible] Host.scatterAdd Host.gather Host.rsqrt in
/-- The targets with the self loops appended. -/
theorem pre_v6 (V : Valuation τ sig (Elt F)) :
    after hostOps0_2 (after hostOps0_1 (after hostOps0 V)) (main_v6 : DevRef τ sig)
      = Cert.Gcn.dsts (F := F) (V (main_arg1 : DevRef τ sig)) := by
  after_results_simp
  rfl

attribute [local irreducible] Host.scatterAdd Host.gather Host.rsqrt in
/-- The edge weights: the degree factor (zero where the degree is not positive) at the two ends of every edge, multiplied. -/
theorem pre_v29 (V : Valuation τ sig (Elt F)) :
    after hostOps0_2 (after hostOps0_1 (after hostOps0 V)) (main_v29 : DevRef τ sig)
      = Cert.Gcn.edgeNorm (F := F) (V (main_arg1 : DevRef τ sig)) := by
  after_results_simp
  rfl

theorem pre_arg0 (V : Valuation τ sig (Elt F)) :
    after hostOps0_2 (after hostOps0_1 (after hostOps0 V)) (main_arg0 : DevRef τ sig) = V (main_arg0 : DevRef τ sig) := by
  after_results_simp

theorem pre_arg1 (V : Valuation τ sig (Elt F)) :
    after hostOps0_2 (after hostOps0_1 (after hostOps0 V)) (main_arg1 : DevRef τ sig) = V (main_arg1 : DevRef τ sig) := by
  after_results_simp

theorem pre_arg2 (V : Valuation τ sig (Elt F)) :
    after hostOps0_2 (after hostOps0_1 (after hostOps0 V)) (main_arg2 : DevRef τ sig) = V (main_arg2 : DevRef τ sig) := by
  after_results_simp

theorem pre_arg3 (V : Valuation τ sig (Elt F)) :
    after hostOps0_2 (after hostOps0_1 (after hostOps0 V)) (main_arg3 : DevRef τ sig) = V (main_arg3 : DevRef τ sig) := by
  after_results_simp

theorem pre_arg4 (V : Valuation τ sig (Elt F)) :
    after hostOps0_2 (after hostOps0_1 (after hostOps0 V)) (main_arg4 : DevRef τ sig) = V (main_arg4 : DevRef τ sig) := by
  after_results_simp

theorem pre_arg5 (V : Valuation τ sig (Elt F)) :
    after hostOps0_2 (after hostOps0_1 (after hostOps0 V)) (main_arg5 : DevRef τ sig) = V (main_arg5 : DevRef τ sig) := by
  after_results_simp

theorem pre_arg6 (V : Valuation τ sig (Elt F)) :
    after hostOps0_2 (after hostOps0_1 (after hostOps0 V)) (main_arg6 : DevRef τ sig) = V (main_arg6 : DevRef τ sig) := by
  after_results_simp

theorem pre_arg7 (V : Valuation τ sig (Elt F)) :
    after hostOps0_2 (after hostOps0_1 (after hostOps0 V)) (main_arg7 : DevRef τ sig) = V (main_arg7 : DevRef τ sig) := by
  after_results_simp

/-! ## The propagation stretch before layer 1's bias -/

attribute [local irreducible] Host.scatterAdd Host.gather Host.rsqrt in
/-- The features in `main_v30` propagated along the edges. -/
theorem host1_v43 (V : Valuation τ sig (Elt F)) :
    after hostOps1 V (main_v43 : DevRef τ sig)
      = Cert.Gcn.propagateAt (F := F) (V (main_v30 : DevRef τ sig)) (V (main_v3 : DevRef τ sig)) (V (main_v6 : DevRef τ sig)) (V (main_v29 : DevRef τ sig)) := by
  after_results_simp
  rfl

/-- The bias `main_arg3` as a one-row matrix: row `0`, column `t` is the vector's entry `t`. -/
theorem host1_v44 (V : Valuation τ sig (Elt F)) (t : Fin 64) :
    (after hostOps1 V (main_v44 : DevRef τ sig) : Vec F S1x64 .f32) (ix2 (0 : Fin 1) t)
      = (V (main_arg3 : DevRef τ sig) : Vec F S64 .f32) (ix1 t) := by
  have e : (after hostOps1 V (main_v44 : DevRef τ sig) : Vec F S1x64 .f32)
      = shapeCast S1x64 (V (main_arg3 : DevRef τ sig) : Vec F S64 .f32) shapeCasts_S64_S1x64 := by
    after_results_simp
    rfl
  exact (congrFun e _).trans (shapeCast_a_1a_apply _ _ 0 t)

theorem host1_keep_v3 (V : Valuation τ sig (Elt F)) :
    after hostOps1 V (main_v3 : DevRef τ sig) = V (main_v3 : DevRef τ sig) := by
  after_results_simp

theorem host1_keep_v6 (V : Valuation τ sig (Elt F)) :
    after hostOps1 V (main_v6 : DevRef τ sig) = V (main_v6 : DevRef τ sig) := by
  after_results_simp

theorem host1_keep_v29 (V : Valuation τ sig (Elt F)) :
    after hostOps1 V (main_v29 : DevRef τ sig) = V (main_v29 : DevRef τ sig) := by
  after_results_simp

theorem host1_keep_arg4 (V : Valuation τ sig (Elt F)) :
    after hostOps1 V (main_arg4 : DevRef τ sig) = V (main_arg4 : DevRef τ sig) := by
  after_results_simp

theorem host1_keep_arg5 (V : Valuation τ sig (Elt F)) :
    after hostOps1 V (main_arg5 : DevRef τ sig) = V (main_arg5 : DevRef τ sig) := by
  after_results_simp

theorem host1_keep_arg6 (V : Valuation τ sig (Elt F)) :
    after hostOps1 V (main_arg6 : DevRef τ sig) = V (main_arg6 : DevRef τ sig) := by
  after_results_simp

theorem host1_keep_arg7 (V : Valuation τ sig (Elt F)) :
    after hostOps1 V (main_arg7 : DevRef τ sig) = V (main_arg7 : DevRef τ sig) := by
  after_results_simp

/-! ## The propagation stretch before layer 2's bias -/

attribute [local irreducible] Host.scatterAdd Host.gather Host.rsqrt in
/-- The features in `main_v46` propagated along the edges. -/
theorem host3_v59 (V : Valuation τ sig (Elt F)) :
    after hostOps3 V (main_v59 : DevRef τ sig)
      = Cert.Gcn.propagateAt (F := F) (V (main_v46 : DevRef τ sig)) (V (main_v3 : DevRef τ sig)) (V (main_v6 : DevRef τ sig)) (V (main_v29 : DevRef τ sig)) := by
  after_results_simp
  rfl

/-- The bias `main_arg5` as a one-row matrix: row `0`, column `t` is the vector's entry `t`. -/
theorem host3_v60 (V : Valuation τ sig (Elt F)) (t : Fin 64) :
    (after hostOps3 V (main_v60 : DevRef τ sig) : Vec F S1x64 .f32) (ix2 (0 : Fin 1) t)
      = (V (main_arg5 : DevRef τ sig) : Vec F S64 .f32) (ix1 t) := by
  have e : (after hostOps3 V (main_v60 : DevRef τ sig) : Vec F S1x64 .f32)
      = shapeCast S1x64 (V (main_arg5 : DevRef τ sig) : Vec F S64 .f32) shapeCasts_S64_S1x64 := by
    after_results_simp
    rfl
  exact (congrFun e _).trans (shapeCast_a_1a_apply _ _ 0 t)

theorem host3_keep_v3 (V : Valuation τ sig (Elt F)) :
    after hostOps3 V (main_v3 : DevRef τ sig) = V (main_v3 : DevRef τ sig) := by
  after_results_simp

theorem host3_keep_v6 (V : Valuation τ sig (Elt F)) :
    after hostOps3 V (main_v6 : DevRef τ sig) = V (main_v6 : DevRef τ sig) := by
  after_results_simp

theorem host3_keep_v29 (V : Valuation τ sig (Elt F)) :
    after hostOps3 V (main_v29 : DevRef τ sig) = V (main_v29 : DevRef τ sig) := by
  after_results_simp

theorem host3_keep_arg6 (V : Valuation τ sig (Elt F)) :
    after hostOps3 V (main_arg6 : DevRef τ sig) = V (main_arg6 : DevRef τ sig) := by
  after_results_simp

theorem host3_keep_arg7 (V : Valuation τ sig (Elt F)) :
    after hostOps3 V (main_arg7 : DevRef τ sig) = V (main_arg7 : DevRef τ sig) := by
  after_results_simp

/-! ## The propagation stretch before layer 3's bias -/

attribute [local irreducible] Host.scatterAdd Host.gather Host.rsqrt in
/-- The features in `main_v62` propagated along the edges. -/
theorem host5_v75 (V : Valuation τ sig (Elt F)) :
    after hostOps5 V (main_v75 : DevRef τ sig)
      = Cert.Gcn.propagateAt (F := F) (V (main_v62 : DevRef τ sig)) (V (main_v3 : DevRef τ sig)) (V (main_v6 : DevRef τ sig)) (V (main_v29 : DevRef τ sig)) := by
  after_results_simp
  rfl

/-- The bias `main_arg7` as a one-row matrix: row `0`, column `t` is the vector's entry `t`. -/
theorem host5_v76 (V : Valuation τ sig (Elt F)) (t : Fin 64) :
    (after hostOps5 V (main_v76 : DevRef τ sig) : Vec F S1x64 .f32) (ix2 (0 : Fin 1) t)
      = (V (main_arg7 : DevRef τ sig) : Vec F S64 .f32) (ix1 t) := by
  have e : (after hostOps5 V (main_v76 : DevRef τ sig) : Vec F S1x64 .f32)
      = shapeCast S1x64 (V (main_arg7 : DevRef τ sig) : Vec F S64 .f32) shapeCasts_S64_S1x64 := by
    after_results_simp
    rfl
  exact (congrFun e _).trans (shapeCast_a_1a_apply _ _ 0 t)

end Cert.KernelIdeal.Hand

end
-- ==== Proof.KChain.lean ====
/-
  The kernel program's result as a function of its arguments. The result buffer is region 5's output array, which
  holds `A + bias` of what the region was entered with (KAct.lean); `A` there is what the host stretch before it
  scattered along the edges from region 4's output, the dense product of region 3's output with the third weight
  matrix (KDense.lean); and so on back through the three layers to the launch memory. The edge list, its self loops
  and the edge weights are computed once, before the first region, and every later stretch reads them from buffers
  no region and no later stretch writes. Followed back boundary by boundary, the result is `Cert.Gcn.net` of the eight
  argument arrays.
-/
import proofs.«143652_j17291538334379_1_alg».proof.Proof.Gen.KernelIdeal.Frame
import proofs.«143652_j17291538334379_1_alg».proof.Proof.Spec
import proofs.«143652_j17291538334379_1_alg».proof.Proof.KDense
import proofs.«143652_j17291538334379_1_alg».proof.Proof.KAct
import proofs.«143652_j17291538334379_1_alg».proof.Proof.KHost

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable [Cert.ReferenceIdeal.Facts]
variable (m : (ℓ : Loc nD τ sig) → Buf (Elt Ideal) ℓ) (ρ : Dev nD → PrngReg)

set_option maxHeartbeats 1600000 in
/-- At the last boundary the result buffer holds the network's value at the launch contents of the eight arguments. -/
theorem result_eq (c : Dev nD) :
    W12 m ρ c (Proc.devRef .tc main_v77)
      = Cert.Gcn.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  -- the edge list, the edge weights and the later layers' parameters, carried unchanged from boundary to boundary
  have c3_arg0 : W3 m ρ c (Proc.devRef .tc main_arg0) = (m ((c : Thread nD τ).loc main_arg0)) := pre_arg0 (W0 m ρ c)
  have c3_arg2 : W3 m ρ c (Proc.devRef .tc main_arg2) = (m ((c : Thread nD τ).loc main_arg2)) := pre_arg2 (W0 m ρ c)
  have c3_v3 : W3 m ρ c (Proc.devRef .tc main_v3) = (Cert.Gcn.srcs (F := Ideal) (m ((c : Thread nD τ).loc main_arg1))) := pre_v3 (W0 m ρ c)
  have c4_v3 : W4 m ρ c (Proc.devRef .tc main_v3) = (Cert.Gcn.srcs (F := Ideal) (m ((c : Thread nD τ).loc main_arg1))) := (W4_of_ne m ρ c main_v3 (by decide)).trans c3_v3
  have c5_v3 : W5 m ρ c (Proc.devRef .tc main_v3) = (Cert.Gcn.srcs (F := Ideal) (m ((c : Thread nD τ).loc main_arg1))) := (host1_keep_v3 (W4 m ρ c)).trans c4_v3
  have c6_v3 : W6 m ρ c (Proc.devRef .tc main_v3) = (Cert.Gcn.srcs (F := Ideal) (m ((c : Thread nD τ).loc main_arg1))) := (W6_of_ne m ρ c main_v3 (by decide)).trans c5_v3
  have c7_v3 : W7 m ρ c (Proc.devRef .tc main_v3) = (Cert.Gcn.srcs (F := Ideal) (m ((c : Thread nD τ).loc main_arg1))) := (W7_of_ne m ρ c main_v3 (by decide)).trans c6_v3
  have c8_v3 : W8 m ρ c (Proc.devRef .tc main_v3) = (Cert.Gcn.srcs (F := Ideal) (m ((c : Thread nD τ).loc main_arg1))) := (host3_keep_v3 (W7 m ρ c)).trans c7_v3
  have c9_v3 : W9 m ρ c (Proc.devRef .tc main_v3) = (Cert.Gcn.srcs (F := Ideal) (m ((c : Thread nD τ).loc main_arg1))) := (W9_of_ne m ρ c main_v3 (by decide)).trans c8_v3
  have c10_v3 : W10 m ρ c (Proc.devRef .tc main_v3) = (Cert.Gcn.srcs (F := Ideal) (m ((c : Thread nD τ).loc main_arg1))) := (W10_of_ne m ρ c main_v3 (by decide)).trans c9_v3
  have c3_v6 : W3 m ρ c (Proc.devRef .tc main_v6) = (Cert.Gcn.dsts (F := Ideal) (m ((c : Thread nD τ).loc main_arg1))) := pre_v6 (W0 m ρ c)
  have c4_v6 : W4 m ρ c (Proc.devRef .tc main_v6) = (Cert.Gcn.dsts (F := Ideal) (m ((c : Thread nD τ).loc main_arg1))) := (W4_of_ne m ρ c main_v6 (by decide)).trans c3_v6
  have c5_v6 : W5 m ρ c (Proc.devRef .tc main_v6) = (Cert.Gcn.dsts (F := Ideal) (m ((c : Thread nD τ).loc main_arg1))) := (host1_keep_v6 (W4 m ρ c)).trans c4_v6
  have c6_v6 : W6 m ρ c (Proc.devRef .tc main_v6) = (Cert.Gcn.dsts (F := Ideal) (m ((c : Thread nD τ).loc main_arg1))) := (W6_of_ne m ρ c main_v6 (by decide)).trans c5_v6
  have c7_v6 : W7 m ρ c (Proc.devRef .tc main_v6) = (Cert.Gcn.dsts (F := Ideal) (m ((c : Thread nD τ).loc main_arg1))) := (W7_of_ne m ρ c main_v6 (by decide)).trans c6_v6
  have c8_v6 : W8 m ρ c (Proc.devRef .tc main_v6) = (Cert.Gcn.dsts (F := Ideal) (m ((c : Thread nD τ).loc main_arg1))) := (host3_keep_v6 (W7 m ρ c)).trans c7_v6
  have c9_v6 : W9 m ρ c (Proc.devRef .tc main_v6) = (Cert.Gcn.dsts (F := Ideal) (m ((c : Thread nD τ).loc main_arg1))) := (W9_of_ne m ρ c main_v6 (by decide)).trans c8_v6
  have c10_v6 : W10 m ρ c (Proc.devRef .tc main_v6) = (Cert.Gcn.dsts (F := Ideal) (m ((c : Thread nD τ).loc main_arg1))) := (W10_of_ne m ρ c main_v6 (by decide)).trans c9_v6
  have c3_v29 : W3 m ρ c (Proc.devRef .tc main_v29) = (Cert.Gcn.edgeNorm (F := Ideal) (m ((c : Thread nD τ).loc main_arg1))) := pre_v29 (W0 m ρ c)
  have c4_v29 : W4 m ρ c (Proc.devRef .tc main_v29) = (Cert.Gcn.edgeNorm (F := Ideal) (m ((c : Thread nD τ).loc main_arg1))) := (W4_of_ne m ρ c main_v29 (by decide)).trans c3_v29
  have c5_v29 : W5 m ρ c (Proc.devRef .tc main_v29) = (Cert.Gcn.edgeNorm (F := Ideal) (m ((c : Thread nD τ).loc main_arg1))) := (host1_keep_v29 (W4 m ρ c)).trans c4_v29
  have c6_v29 : W6 m ρ c (Proc.devRef .tc main_v29) = (Cert.Gcn.edgeNorm (F := Ideal) (m ((c : Thread nD τ).loc main_arg1))) := (W6_of_ne m ρ c main_v29 (by decide)).trans c5_v29
  have c7_v29 : W7 m ρ c (Proc.devRef .tc main_v29) = (Cert.Gcn.edgeNorm (F := Ideal) (m ((c : Thread nD τ).loc main_arg1))) := (W7_of_ne m ρ c main_v29 (by decide)).trans c6_v29
  have c8_v29 : W8 m ρ c (Proc.devRef .tc main_v29) = (Cert.Gcn.edgeNorm (F := Ideal) (m ((c : Thread nD τ).loc main_arg1))) := (host3_keep_v29 (W7 m ρ c)).trans c7_v29
  have c9_v29 : W9 m ρ c (Proc.devRef .tc main_v29) = (Cert.Gcn.edgeNorm (F := Ideal) (m ((c : Thread nD τ).loc main_arg1))) := (W9_of_ne m ρ c main_v29 (by decide)).trans c8_v29
  have c10_v29 : W10 m ρ c (Proc.devRef .tc main_v29) = (Cert.Gcn.edgeNorm (F := Ideal) (m ((c : Thread nD τ).loc main_arg1))) := (W10_of_ne m ρ c main_v29 (by decide)).trans c9_v29
  have c3_arg3 : W3 m ρ c (Proc.devRef .tc main_arg3) = (m ((c : Thread nD τ).loc main_arg3)) := pre_arg3 (W0 m ρ c)
  have c4_arg3 : W4 m ρ c (Proc.devRef .tc main_arg3) = (m ((c : Thread nD τ).loc main_arg3)) := (W4_of_ne m ρ c main_arg3 (by decide)).trans c3_arg3
  have c3_arg4 : W3 m ρ c (Proc.devRef .tc main_arg4) = (m ((c : Thread nD τ).loc main_arg4)) := pre_arg4 (W0 m ρ c)
  have c4_arg4 : W4 m ρ c (Proc.devRef .tc main_arg4) = (m ((c : Thread nD τ).loc main_arg4)) := (W4_of_ne m ρ c main_arg4 (by decide)).trans c3_arg4
  have c5_arg4 : W5 m ρ c (Proc.devRef .tc main_arg4) = (m ((c : Thread nD τ).loc main_arg4)) := (host1_keep_arg4 (W4 m ρ c)).trans c4_arg4
  have c6_arg4 : W6 m ρ c (Proc.devRef .tc main_arg4) = (m ((c : Thread nD τ).loc main_arg4)) := (W6_of_ne m ρ c main_arg4 (by decide)).trans c5_arg4
  have c3_arg5 : W3 m ρ c (Proc.devRef .tc main_arg5) = (m ((c : Thread nD τ).loc main_arg5)) := pre_arg5 (W0 m ρ c)
  have c4_arg5 : W4 m ρ c (Proc.devRef .tc main_arg5) = (m ((c : Thread nD τ).loc main_arg5)) := (W4_of_ne m ρ c main_arg5 (by decide)).trans c3_arg5
  have c5_arg5 : W5 m ρ c (Proc.devRef .tc main_arg5) = (m ((c : Thread nD τ).loc main_arg5)) := (host1_keep_arg5 (W4 m ρ c)).trans c4_arg5
  have c6_arg5 : W6 m ρ c (Proc.devRef .tc main_arg5) = (m ((c : Thread nD τ).loc main_arg5)) := (W6_of_ne m ρ c main_arg5 (by decide)).trans c5_arg5
  have c7_arg5 : W7 m ρ c (Proc.devRef .tc main_arg5) = (m ((c : Thread nD τ).loc main_arg5)) := (W7_of_ne m ρ c main_arg5 (by decide)).trans c6_arg5
  have c3_arg6 : W3 m ρ c (Proc.devRef .tc main_arg6) = (m ((c : Thread nD τ).loc main_arg6)) := pre_arg6 (W0 m ρ c)
  have c4_arg6 : W4 m ρ c (Proc.devRef .tc main_arg6) = (m ((c : Thread nD τ).loc main_arg6)) := (W4_of_ne m ρ c main_arg6 (by decide)).trans c3_arg6
  have c5_arg6 : W5 m ρ c (Proc.devRef .tc main_arg6) = (m ((c : Thread nD τ).loc main_arg6)) := (host1_keep_arg6 (W4 m ρ c)).trans c4_arg6
  have c6_arg6 : W6 m ρ c (Proc.devRef .tc main_arg6) = (m ((c : Thread nD τ).loc main_arg6)) := (W6_of_ne m ρ c main_arg6 (by decide)).trans c5_arg6
  have c7_arg6 : W7 m ρ c (Proc.devRef .tc main_arg6) = (m ((c : Thread nD τ).loc main_arg6)) := (W7_of_ne m ρ c main_arg6 (by decide)).trans c6_arg6
  have c8_arg6 : W8 m ρ c (Proc.devRef .tc main_arg6) = (m ((c : Thread nD τ).loc main_arg6)) := (host3_keep_arg6 (W7 m ρ c)).trans c7_arg6
  have c9_arg6 : W9 m ρ c (Proc.devRef .tc main_arg6) = (m ((c : Thread nD τ).loc main_arg6)) := (W9_of_ne m ρ c main_arg6 (by decide)).trans c8_arg6
  have c3_arg7 : W3 m ρ c (Proc.devRef .tc main_arg7) = (m ((c : Thread nD τ).loc main_arg7)) := pre_arg7 (W0 m ρ c)
  have c4_arg7 : W4 m ρ c (Proc.devRef .tc main_arg7) = (m ((c : Thread nD τ).loc main_arg7)) := (W4_of_ne m ρ c main_arg7 (by decide)).trans c3_arg7
  have c5_arg7 : W5 m ρ c (Proc.devRef .tc main_arg7) = (m ((c : Thread nD τ).loc main_arg7)) := (host1_keep_arg7 (W4 m ρ c)).trans c4_arg7
  have c6_arg7 : W6 m ρ c (Proc.devRef .tc main_arg7) = (m ((c : Thread nD τ).loc main_arg7)) := (W6_of_ne m ρ c main_arg7 (by decide)).trans c5_arg7
  have c7_arg7 : W7 m ρ c (Proc.devRef .tc main_arg7) = (m ((c : Thread nD τ).loc main_arg7)) := (W7_of_ne m ρ c main_arg7 (by decide)).trans c6_arg7
  have c8_arg7 : W8 m ρ c (Proc.devRef .tc main_arg7) = (m ((c : Thread nD τ).loc main_arg7)) := (host3_keep_arg7 (W7 m ρ c)).trans c7_arg7
  have c9_arg7 : W9 m ρ c (Proc.devRef .tc main_arg7) = (m ((c : Thread nD τ).loc main_arg7)) := (W9_of_ne m ρ c main_arg7 (by decide)).trans c8_arg7
  have c10_arg7 : W10 m ρ c (Proc.devRef .tc main_arg7) = (m ((c : Thread nD τ).loc main_arg7)) := (W10_of_ne m ρ c main_arg7 (by decide)).trans c9_arg7
  -- layer 1: region 0, the stretch after it, region 1
  have d1 : W4 m ρ c (Proc.devRef .tc main_v30) = (Cert.Gcn.dense (F := Ideal) (m ((c : Thread nD τ).loc main_arg0)) (m ((c : Thread nD τ).loc main_arg2))) := by
    refine (W4_arr m ρ c 2).trans ((final0 (V3 m ρ) c).trans ?_)
    show Cert.Gcn.dense (F := Ideal) (W3 m ρ c (Proc.devRef .tc main_arg0)) (W3 m ρ c (Proc.devRef .tc main_arg2)) = _
    rw [c3_arg0, c3_arg2]
  have p1 : W5 m ρ c (Proc.devRef .tc main_v43) = (Cert.Gcn.propagate (F := Ideal) (Cert.Gcn.dense (F := Ideal) (m ((c : Thread nD τ).loc main_arg0)) (m ((c : Thread nD τ).loc main_arg2))) (m ((c : Thread nD τ).loc main_arg1))) := by
    refine (host1_v43 (W4 m ρ c)).trans ?_
    rw [d1, c4_v3, c4_v6, c4_v29]
    rfl
  have r1 : ∀ s : Fin 64, (V5 m ρ c main_v44 : Vec Ideal S1x64 .f32) (ix2 (0 : Fin 1) s) = (m ((c : Thread nD τ).loc main_arg3)) (ix1 s) := fun s => by
    refine (host1_v44 (W4 m ρ c) s).trans ?_
    rw [c4_arg3]
  have h1 : W6 m ρ c (Proc.devRef .tc main_v45) = (Cert.Gcn.elu (F := Ideal) (Cert.Gcn.conv (F := Ideal) (m ((c : Thread nD τ).loc main_arg0)) (m ((c : Thread nD τ).loc main_arg1)) (m ((c : Thread nD τ).loc main_arg2)) (m ((c : Thread nD τ).loc main_arg3)))) := by
    refine (W6_arr m ρ c 2).trans ((final1 (V5 m ρ) c (m ((c : Thread nD τ).loc main_arg3)) r1).trans ?_)
    show Cert.Gcn.elu (F := Ideal) (Cert.Gcn.addBias (F := Ideal) (W5 m ρ c (Proc.devRef .tc main_v43)) (m ((c : Thread nD τ).loc main_arg3))) = _
    rw [p1]
    rfl
  -- layer 2: region 2, the stretch after it, region 3
  have d2 : W7 m ρ c (Proc.devRef .tc main_v46) = (Cert.Gcn.dense (F := Ideal) (Cert.Gcn.elu (F := Ideal) (Cert.Gcn.conv (F := Ideal) (m ((c : Thread nD τ).loc main_arg0)) (m ((c : Thread nD τ).loc main_arg1)) (m ((c : Thread nD τ).loc main_arg2)) (m ((c : Thread nD τ).loc main_arg3)))) (m ((c : Thread nD τ).loc main_arg4))) := by
    refine (W7_arr m ρ c 2).trans ((final2 (V6 m ρ) c).trans ?_)
    show Cert.Gcn.dense (F := Ideal) (W6 m ρ c (Proc.devRef .tc main_v45)) (W6 m ρ c (Proc.devRef .tc main_arg4)) = _
    rw [h1, c6_arg4]
  have p2 : W8 m ρ c (Proc.devRef .tc main_v59) = (Cert.Gcn.propagate (F := Ideal) (Cert.Gcn.dense (F := Ideal) (Cert.Gcn.elu (F := Ideal) (Cert.Gcn.conv (F := Ideal) (m ((c : Thread nD τ).loc main_arg0)) (m ((c : Thread nD τ).loc main_arg1)) (m ((c : Thread nD τ).loc main_arg2)) (m ((c : Thread nD τ).loc main_arg3)))) (m ((c : Thread nD τ).loc main_arg4))) (m ((c : Thread nD τ).loc main_arg1))) := by
    refine (host3_v59 (W7 m ρ c)).trans ?_
    rw [d2, c7_v3, c7_v6, c7_v29]
    rfl
  have r2 : ∀ s : Fin 64, (V8 m ρ c main_v60 : Vec Ideal S1x64 .f32) (ix2 (0 : Fin 1) s) = (m ((c : Thread nD τ).loc main_arg5)) (ix1 s) := fun s => by
    refine (host3_v60 (W7 m ρ c) s).trans ?_
    rw [c7_arg5]
  have h2 : W9 m ρ c (Proc.devRef .tc main_v61) = (Cert.Gcn.elu (F := Ideal) (Cert.Gcn.conv (F := Ideal) (Cert.Gcn.elu (F := Ideal) (Cert.Gcn.conv (F := Ideal) (m ((c : Thread nD τ).loc main_arg0)) (m ((c : Thread nD τ).loc main_arg1)) (m ((c : Thread nD τ).loc main_arg2)) (m ((c : Thread nD τ).loc main_arg3)))) (m ((c : Thread nD τ).loc main_arg1)) (m ((c : Thread nD τ).loc main_arg4)) (m ((c : Thread nD τ).loc main_arg5)))) := by
    refine (W9_arr m ρ c 2).trans ((final3 (V8 m ρ) c (m ((c : Thread nD τ).loc main_arg5)) r2).trans ?_)
    show Cert.Gcn.elu (F := Ideal) (Cert.Gcn.addBias (F := Ideal) (W8 m ρ c (Proc.devRef .tc main_v59)) (m ((c : Thread nD τ).loc main_arg5))) = _
    rw [p2]
    rfl
  -- layer 3: region 4, the stretch after it, region 5
  have d3 : W10 m ρ c (Proc.devRef .tc main_v62) = (Cert.Gcn.dense (F := Ideal) (Cert.Gcn.elu (F := Ideal) (Cert.Gcn.conv (F := Ideal) (Cert.Gcn.elu (F := Ideal) (Cert.Gcn.conv (F := Ideal) (m ((c : Thread nD τ).loc main_arg0)) (m ((c : Thread nD τ).loc main_arg1)) (m ((c : Thread nD τ).loc main_arg2)) (m ((c : Thread nD τ).loc main_arg3)))) (m ((c : Thread nD τ).loc main_arg1)) (m ((c : Thread nD τ).loc main_arg4)) (m ((c : Thread nD τ).loc main_arg5)))) (m ((c : Thread nD τ).loc main_arg6))) := by
    refine (W10_arr m ρ c 2).trans ((final4 (V9 m ρ) c).trans ?_)
    show Cert.Gcn.dense (F := Ideal) (W9 m ρ c (Proc.devRef .tc main_v61)) (W9 m ρ c (Proc.devRef .tc main_arg6)) = _
    rw [h2, c9_arg6]
  have p3 : W11 m ρ c (Proc.devRef .tc main_v75) = (Cert.Gcn.propagate (F := Ideal) (Cert.Gcn.dense (F := Ideal) (Cert.Gcn.elu (F := Ideal) (Cert.Gcn.conv (F := Ideal) (Cert.Gcn.elu (F := Ideal) (Cert.Gcn.conv (F := Ideal) (m ((c : Thread nD τ).loc main_arg0)) (m ((c : Thread nD τ).loc main_arg1)) (m ((c : Thread nD τ).loc main_arg2)) (m ((c : Thread nD τ).loc main_arg3)))) (m ((c : Thread nD τ).loc main_arg1)) (m ((c : Thread nD τ).loc main_arg4)) (m ((c : Thread nD τ).loc main_arg5)))) (m ((c : Thread nD τ).loc main_arg6))) (m ((c : Thread nD τ).loc main_arg1))) := by
    refine (host5_v75 (W10 m ρ c)).trans ?_
    rw [d3, c10_v3, c10_v6, c10_v29]
    rfl
  have r3 : ∀ s : Fin 64, (V11 m ρ c main_v76 : Vec Ideal S1x64 .f32) (ix2 (0 : Fin 1) s) = (m ((c : Thread nD τ).loc main_arg7)) (ix1 s) := fun s => by
    refine (host5_v76 (W10 m ρ c) s).trans ?_
    rw [c10_arg7]
  refine (W12_arr m ρ c 2).trans ((final5 (V11 m ρ) c (m ((c : Thread nD τ).loc main_arg7)) r3).trans ?_)
  show Cert.Gcn.addBias (F := Ideal) (W11 m ρ c (Proc.devRef .tc main_v75)) (m ((c : Thread nD τ).loc main_arg7)) = _
  rw [p3]
  rfl

end Cert.KernelIdeal.Hand

end
-- ==== Proof.lean ====
/-
  A three-layer graph convolution on 100000 nodes and 1600000 edges, as six kernel regions among host operations,
  against the same network in plain array operations: the two programs, read at the extended reals, end with the same
  result.

  Both programs build the edge list with self loops, the in-degrees, `degree ^ (-1/2)` and the edge weights in the same
  host operations, and both propagate features along the edges by the same gather, scale and scatter-add; they differ
  in the dense step and in the bias and activation. The kernel program multiplies ten row blocks of 10000 rows each
  by the weight matrix (operands rounded to bf16, a change of format that is the identity at the extended reals,
  accumulated from zero), where the reference has one product: row by row the same sum over the 64 contracted
  positions. It adds the bias row and applies `elu` as `v if v > 0 else exp v - 1`, where the reference's `elu` is
  `v if v > 0 else 1 · expm1 (0 if v > 0 else v)`: equal on every extended real, since `expm1 v = exp v - 1` and
  `1 · u = u`. No step uses finiteness of the inputs.

  The function both compute is `Cert.Gcn.net` (Proof/Spec.lean). The reference is a straight line of host operations
  whose run and value are read in Proof/RefRun.lean and Proof/RefValue.lean; the kernel program's run is followed
  region by region (Proof/KRun.lean), each region's output array is read as a whole-array function of the region's
  inputs (Proof/KBlock.lean, KDense.lean, KAct.lean), the host stretches between regions as the propagation step
  (Proof/KHost.lean), and the result buffer is followed back to the arguments in Proof/KChain.lean.
-/
import proofs.«143652_j17291538334379_1_alg».proof.Defs
import proofs.«143652_j17291538334379_1_alg».proof.Proof.Gen.Kernel
import proofs.«143652_j17291538334379_1_alg».proof.Proof.Gen.Kernel.Skeleton
import proofs.«143652_j17291538334379_1_alg».proof.Proof.Gen.Kernel.Launch
import proofs.«143652_j17291538334379_1_alg».proof.Proof.Gen.Kernel.Points
import proofs.«143652_j17291538334379_1_alg».proof.Proof.Gen.Kernel.Frame
import proofs.«143652_j17291538334379_1_alg».proof.Proof.Gen.KernelIdeal
import proofs.«143652_j17291538334379_1_alg».proof.Proof.Gen.KernelIdeal.Skeleton
import proofs.«143652_j17291538334379_1_alg».proof.Proof.Gen.KernelIdeal.Launch
import proofs.«143652_j17291538334379_1_alg».proof.Proof.Gen.KernelIdeal.Points
import proofs.«143652_j17291538334379_1_alg».proof.Proof.Gen.KernelIdeal.Frame
import proofs.«143652_j17291538334379_1_alg».proof.Proof.Gen.ReferenceIdeal
import proofs.«143652_j17291538334379_1_alg».proof.Proof.Gen.Pre_finite_inputs
import proofs.«143652_j17291538334379_1_alg».proof.Proof.Spec
import proofs.«143652_j17291538334379_1_alg».proof.Proof.RefRun
import proofs.«143652_j17291538334379_1_alg».proof.Proof.RefValue
import proofs.«143652_j17291538334379_1_alg».proof.Proof.KRun
import proofs.«143652_j17291538334379_1_alg».proof.Proof.KChain
import Idealize.ShloMosaic.Adequacy
import Idealize.ShloMosaic.Init

noncomputable section

namespace Cert.Proof

open Idealize.ShloMosaic Idealize.SL.Sem

/-- The kernel program as printed runs to the end and leaves its arguments as they were. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference is a straight line of host operations, none of which writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _),
      (h c Cert.ReferenceIdeal.main_arg7).trans (Cert.ReferenceIdeal.Hand.arg7_eq _)⟩)
    (Cert.ReferenceIdeal.Hand.run (F := Ideal) m ρ)

/-- The idealization rewrote no operation of the kernel program. -/
theorem preserves : Cert.preserves_Kernel_KernelIdeal := trivial

/-- Both programs end with `Cert.Gcn.net` of their arguments in the result buffer, and the arguments agree. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact Cert.KernelIdeal.Hand.run_of m ρ (fun s => ∀ c : Dev Cert.KernelIdeal.nD,
      s.mem ((c.tc : Thread Cert.KernelIdeal.nD Cert.KernelIdeal.τ).loc Cert.KernelIdeal.main_v77) = Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ s.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ s.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ s.mem ((c.tc : Thread Cert.KernelIdeal.nD Cert.KernelIdeal.τ).loc Cert.KernelIdeal.main_arg7) = m ((c.tc : Thread Cert.KernelIdeal.nD Cert.KernelIdeal.τ).loc Cert.KernelIdeal.main_arg7)) (fun s h c =>
      ⟨(h c _ (Cert.KernelIdeal.Gen.mem_uc Cert.KernelIdeal.main_v77 (by decide))).trans (Cert.KernelIdeal.Hand.result_eq m ρ c),
        (h c _ (Cert.KernelIdeal.Gen.mem_uc Cert.KernelIdeal.main_arg0 (by decide))).trans (Cert.KernelIdeal.Gen.W12_main_arg0 m ρ c),
        (h c _ (Cert.KernelIdeal.Gen.mem_uc Cert.KernelIdeal.main_arg1 (by decide))).trans (Cert.KernelIdeal.Gen.W12_main_arg1 m ρ c),
        (h c _ (Cert.KernelIdeal.Gen.mem_uc Cert.KernelIdeal.main_arg2 (by decide))).trans (Cert.KernelIdeal.Gen.W12_main_arg2 m ρ c),
        (h c _ (Cert.KernelIdeal.Gen.mem_uc Cert.KernelIdeal.main_arg3 (by decide))).trans (Cert.KernelIdeal.Gen.W12_main_arg3 m ρ c),
        (h c _ (Cert.KernelIdeal.Gen.mem_uc Cert.KernelIdeal.main_arg4 (by decide))).trans (Cert.KernelIdeal.Gen.W12_main_arg4 m ρ c),
        (h c _ (Cert.KernelIdeal.Gen.mem_uc Cert.KernelIdeal.main_arg5 (by decide))).trans (Cert.KernelIdeal.Gen.W12_main_arg5 m ρ c),
        (h c _ (Cert.KernelIdeal.Gen.mem_uc Cert.KernelIdeal.main_arg6 (by decide))).trans (Cert.KernelIdeal.Gen.W12_main_arg6 m ρ c),
        (h c _ (Cert.KernelIdeal.Gen.mem_uc Cert.KernelIdeal.main_arg7 (by decide))).trans (Cert.KernelIdeal.Gen.W12_main_arg7 m ρ c)⟩)
  · refine (θ_run Cert.ReferenceIdeal.defs _ _).mono (fun r h c => ⟨?_,
      (h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _),
      (h c Cert.ReferenceIdeal.main_arg7).trans (Cert.ReferenceIdeal.Hand.arg7_eq _)⟩)
      (Cert.ReferenceIdeal.Hand.run (F := Ideal) m' ρ')
    refine (h c Cert.ReferenceIdeal.main_v112).trans ((Cert.ReferenceIdeal.Hand.result_eq _).trans ?_)
    obtain ⟨e0, e1, e2, e3, e4, e5, e6, e7⟩ := hagree c
    show Cert.Gcn.net (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
